-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S100000x1 : Shape := ⟨2, ![100000, 1]⟩
abbrev S20000x1 : Shape := ⟨2, ![20000, 1]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S20000x1 : S_.BroadcastsInDim S20000x1 (![] : Fin 0 → Fin S20000x1.rank)
  reducesTo_S20000x1_S_d0_1 : S20000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg3 : FVec F S100000x1 .f32) (main_arg5 : FVec F S20000x1 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_cst_22 : FVec F S_ .f32 := constant S_ .f32 0x00000000#32
  let main_v59 : FVec F S100000x1 .f32 := broadcastInDim S100000x1 ![] bcast_S_S100000x1 main_cst_22
  let main_v60 : IVec S100000x1 1 := cmpf .ogt main_arg3 main_v59
  let main_c_23 : IVec S_ 1 := constantI S_ 1 1#1
  let main_v61 : IVec S_ 1 := (fun x v => Host.reduce IntOp.andi x v reducesTo_S100000x1_S_d0_1 h_S_) main_v60 main_c_23
  let main_v62 : IVec S_ 1 := andi main_v58 main_v61
  let main_cst_24 : FVec F S_ .f32 := constant S_ .f32 0x00000000#32
  let main_v63 : FVec F S20000x1 .f32 := broadcastInDim S20000x1 ![] bcast_S_S20000x1 main_cst_24
  let main_v64 : IVec S20000x1 1 := cmpf .ogt main_arg5 main_v63
  let main_c_25 : IVec S_ 1 := constantI S_ 1 1#1
  let main_v65 : IVec S_ 1 := (fun x v => Host.reduce IntOp.andi x v reducesTo_S20000x1_S_d0_1 h_S_) main_v64 main_c_25
  let main_v66 : IVec S_ 1 := andi main_v62 main_v65
  main_v66

def fn_part2 {F : FTy → Type} [FloatOps F] (main_arg3 : FVec F S100000x1 .f32) (main_arg5 : FVec F S20000x1 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg3 main_arg5 main_arg13 main_v48 main_v49 main_v50

def fn_part1 {F : FTy → Type} [FloatOps F] (main_arg3 : FVec F S100000x1 .f32) (main_arg4 : FVec F S20000x1 .f32) (main_arg5 : FVec F S20000x1 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S20000x1 .f32 := Host.absf main_arg4
  let main_cst_6 : FVec F S_ .f32 := constant S_ .f32 0x7F800000#32
  let main_v20 : FVec F S20000x1 .f32 := broadcastInDim S20000x1 ![] bcast_S_S20000x1 main_cst_6
  let main_v21 : IVec S20000x1 1 := cmpf .olt main_v19 main_v20
  let main_c_7 : IVec S_ 1 := constantI S_ 1 1#1
  let main_v22 : IVec S_ 1 := (fun x v => Host.reduce IntOp.andi x v reducesTo_S20000x1_S_d0_1 h_S_) main_v21 main_c_7
  let main_v23 : IVec S_ 1 := andi main_v18 main_v22
  let main_v24 : FVec F S20000x1 .f32 := Host.absf main_arg5
  let main_cst_8 : FVec F S_ .f32 := constant S_ .f32 0x7F800000#32
  let main_v25 : FVec F S20000x1 .f32 := broadcastInDim S20000x1 ![] bcast_S_S20000x1 main_cst_8
  let main_v26 : IVec S20000x1 1 := cmpf .olt main_v24 main_v25
  let main_c_9 : IVec S_ 1 := constantI S_ 1 1#1
  let main_v27 : IVec S_ 1 := (fun x v => Host.reduce IntOp.andi x v reducesTo_S20000x1_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg5 main_arg9 main_arg10 main_arg11 main_arg12 main_arg13 main_v33

def fn {F : FTy → Type} [FloatOps F] (main_arg0 : FVec F S100000x128 .f32) (main_arg1 : FVec F S20000x128 .f32) (main_arg2 : FVec F S100000x1 .f32) (main_arg3 : FVec F S100000x1 .f32) (main_arg4 : FVec F S20000x1 .f32) (main_arg5 : FVec F S20000x1 .f32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg3 main_arg4 main_arg5 main_arg8 main_arg9 main_arg10 main_arg11 main_arg12 main_arg13 main_v13 main_v16
-- ==== Kernel.lean ====
abbrev S100000x128 : Shape := ⟨2, ![100000, 128]⟩
abbrev S20000x128 : Shape := ⟨2, ![20000, 128]⟩
abbrev S100000x1 : Shape := ⟨2, ![100000, 1]⟩
abbrev S20000x1 : Shape := ⟨2, ![20000, 1]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S2000x1 : Shape := ⟨2, ![2000, 1]⟩
abbrev S_ : Shape := ⟨0, ![]⟩
abbrev S600000x1 : Shape := ⟨2, ![600000, 1]⟩
abbrev S600000x128 : Shape := ⟨2, ![600000, 128]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S100000x1, .f32⟩
  | .hbm, ⟨3, _⟩ => ⟨S100000x1, .f32⟩
  | .hbm, ⟨4, _⟩ => ⟨S20000x1, .f32⟩
  | .hbm, ⟨5, _⟩ => ⟨S20000x1, .f32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S100000x128, .bf16⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .bf16⟩
  | .hbm, ⟨33, _⟩ => ⟨S600000x128, .f32⟩
  | .hbm, ⟨34, _⟩ => ⟨S_, .f32⟩
  | .hbm, ⟨35, _⟩ => ⟨S20000x128, .f32⟩
  | .hbm, ⟨36, _⟩ => ⟨S600000x1, .i32⟩
  | .hbm, ⟨37, _⟩ => ⟨S20000x128, .f32⟩
  | .hbm, ⟨38, _⟩ => ⟨S20000x128, .f32⟩
  | .hbm, ⟨39, _⟩ => ⟨S20000x128, .f32⟩
  | .hbm, ⟨40, _⟩ => ⟨S20000x128, .bf16⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .bf16⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S100000x128, .f32⟩
  | .hbm, ⟨56, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S2000x1, .f32⟩
  | .local _ .vmem, ⟨7, _⟩ => ⟨S2000x1, .f32⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S128x128, .bf16⟩
  | .local _ .vmem, ⟨13, _⟩ => ⟨S1x128, .f32⟩
  | .local _ .vmem, ⟨14, _⟩ => ⟨S2000x1, .f32⟩
  | .local _ .vmem, ⟨15, _⟩ => ⟨S2000x1, .f32⟩
  | .local _ .vmem, ⟨16, _⟩ => ⟨S2000x128, .bf16⟩
  | .local _ .vmem, ⟨17, _⟩ => ⟨S2000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  shapeCasts_S2000x128_S2000x128 : S2000x128.ShapeCasts S2000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S20000x1.size a
  hwx1_3 : ∀ i : grid1.Coords, EltTy.bits .f32 = 32 ∨ (Rect.block (s := S20000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S20000x128.size a
  hwx1_4 : ∀ i : grid1.Coords, EltTy.bits .bf16 = 32 ∨ (Rect.block (s := S20000x128) S2000x128.size (cc1_transform_4 i) (hinb1_4 i)).WholeWords (EltTy.packing .bf16)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S100000x1 : Shape := ⟨2, ![100000, 1]⟩
abbrev S20000x1 : Shape := ⟨2, ![20000, 1]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S100000x1, .f32⟩
  | .hbm, ⟨3, _⟩ => ⟨S100000x1, .f32⟩
  | .hbm, ⟨4, _⟩ => ⟨S20000x1, .f32⟩
  | .hbm, ⟨5, _⟩ => ⟨S20000x1, .f32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S128x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x1, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S20000x128, .f32⟩
  | .hbm, ⟨56, _⟩ => ⟨S600000x1, .i32⟩
  | .hbm, ⟨57, _⟩ => ⟨S20000x128, .f32⟩
  | .hbm, ⟨58, _⟩ => ⟨S128x128, .f32⟩
  | .hbm, ⟨59, _⟩ => ⟨S20000x128, .f32⟩
  | .hbm, ⟨60, _⟩ => ⟨S1x128, .f32⟩
  | .hbm, ⟨61, _⟩ => ⟨S20000x128, .f32⟩
  | .hbm, ⟨62, _⟩ => ⟨S20000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x1, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x1, .f32⟩
  | .hbm, ⟨81, _⟩ => ⟨S600000x1, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000x128, .f32⟩
  | .hbm, ⟨91, _⟩ => ⟨S600000x128, .f32⟩
  | .hbm, ⟨92, _⟩ => ⟨S600000x128, .f32⟩
  | .hbm, ⟨93, _⟩ => ⟨S_, .f32⟩
  | .hbm, ⟨94, _⟩ => ⟨S100000x128, .f32⟩
  | .hbm, ⟨95, _⟩ => ⟨S600000x1, .i32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x1_S600000x1_S600000x1_1_0_n_n_0_1_11_wf : GatherDims.WF S100000x1 S600000x1 S600000x1 [1] [0] [] [0] [] 1 ![1, 1]
  gather_S20000x1_S600000x1_S600000x1_1_0_n_n_0_1_11_wf : GatherDims.WF S20000x1 S600000x1 S600000x1 [1] [0] [] [0] [] 1 ![1, 1]
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  dot_S20000x128_S128x128_S20000x128_1_0_0_1_n_n_wf : DotDims.WF S20000x128 S128x128 S20000x128 [1] [0] [0] [1] [] []
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x1_S600000x1_S600000x1_1_0_n_n_0_1_11 : GatherDims S100000x1 S600000x1 S600000x1 where
  offsetDims := [1]
  collapsedSliceDims := [0]
  operandBatchingDims := []
  startIndicesBatchingDims := []
  startIndexMap := [0]
  indexVectorDim := 1
  sliceSizes := ![1, 1]
  wf := gather_S100000x1_S600000x1_S600000x1_1_0_n_n_0_1_11_wf
def gather_S20000x1_S600000x1_S600000x1_1_0_n_n_0_1_11 : GatherDims S20000x1 S600000x1 S600000x1 where
  offsetDims := [1]
  collapsedSliceDims := [0]
  operandBatchingDims := []
  startIndicesBatchingDims := []
  startIndexMap := [0]
  indexVectorDim := 1
  sliceSizes := ![1, 1]
  wf := gather_S20000x1_S600000x1_S600000x1_1_0_n_n_0_1_11_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.LibRealDivSum.lean ====
/-
  Extended reals that are real numbers, and the one algebraic law of this certificate.

  Both programs pass messages along the incidences of a hypergraph.  One of them divides every
  message by the normaliser of the row it is sent to and then adds the messages up; the other adds
  the undivided messages up and divides the total once.  Over the real numbers, and for a nonzero
  normaliser `s`,

      (∑ₑ xₑ · aₑ) / s  =  ∑ₑ (aₑ / s) · xₑ,

  because division by `s` is multiplication by `1 / s`, which distributes over a finite sum.  On
  the extended reals neither step is free (an infinite term breaks distributivity, and a quotient
  by zero is not a product), so the law is stated for terms that are real numbers and a divisor
  that is a nonzero real number, and the closure properties that show every intermediate value of
  the two programs to be a real number are collected here as well.
-/
import Idealize.ShloMosaic.PureOps.Ideal

noncomputable section

open scoped BigOperators

open Idealize.ShloMosaic

namespace Hnhn

/-- An extended real that is (the image of) a real number. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A real number that is not the extended real `0` is a nonzero real. -/
theorem ne_zero_of_coe_ne_zero {b : ℝ} (h : (b : EReal) ≠ 0) : b ≠ 0 := by
  rintro rfl
  exact h EReal.coe_zero

/-- The quotient of a real number by a nonzero real number is a real number. -/
theorem IsReal.div {x y : EReal} (hx : IsReal x) (hy : IsReal y) (h0 : y ≠ 0) : IsReal (Ideal.div x y) := by
  obtain ⟨a, rfl⟩ := hx
  obtain ⟨b, rfl⟩ := hy
  rw [Ideal.div_coe (ne_zero_of_coe_ne_zero h0)]
  exact ⟨a * (1 / b), (EReal.coe_mul _ _).symm⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW.  For real terms `x e`, `a e` and a nonzero real divisor `s`, dividing the total of the
    products `x e · a e` by `s` gives the total of the products `(a e / s) · x e`.  The divisor on the right
    may be named per term (`sd e`), as long as it is `s` for every term of the sum.  Both totals start from
    the extended real `0`, as an accumulating scatter into a zero array does. -/
theorem div_sum_law {ι : Type*} (S : Finset ι) (a x sd : ι → EReal) (s : EReal)
    (ha : ∀ e, IsReal (a e)) (hx : ∀ e, IsReal (x e)) (hs : IsReal s) (h0 : s ≠ 0)
    (hsd : ∀ e ∈ S, sd e = s) :
    Ideal.div (0 + ∑ e ∈ S, x e * a e) s = 0 + ∑ e ∈ S, Ideal.div (a e) (sd e) * x e := by
  obtain ⟨s', rfl⟩ := hs
  have hs' : s' ≠ 0 := ne_zero_of_coe_ne_zero h0
  choose a' ha' using ha
  choose x' hx' using hx
  have hR : ∑ e ∈ S, Ideal.div (a e) (sd e) * x e = ∑ e ∈ S, ((a' e * (1 / s') * x' e : ℝ) : EReal) :=
    Finset.sum_congr rfl fun e he => by
      rw [hsd e he, Ideal.div_coe hs', ha' e, hx' e, ← EReal.coe_mul, ← EReal.coe_mul]
  have hL : ∑ e ∈ S, x e * a e = ∑ e ∈ S, ((x' e * a' e : ℝ) : EReal) :=
    Finset.sum_congr rfl fun e _ => by rw [ha' e, hx' e, ← EReal.coe_mul]
  rw [hR, hL, Ideal.div_coe hs', ← coe_sum, ← coe_sum, zero_add, zero_add, ← EReal.coe_mul]
  congr 1
  rw [Finset.sum_mul]
  exact Finset.sum_congr rfl fun e _ => by ring

end Hnhn

end
-- ==== Proof.LibWrapIdx.lean ====
import Idealize.ShloMosaic.Lib.ValueIdx

/-!
  A NONNEGATIVE INDEX WORD IS NOT WRAPPED.

  Before a row gather both programs replace an index word `v` by `v + 100000` when `v`, read signed, is
  negative (a negative index counts from the end), and keep it otherwise. For a word whose signed reading is
  nonnegative the comparison `v < 0` is false, so the selection returns `v` itself.
-/

open Idealize.ShloMosaic

namespace WrapIdx

/-- The signed comparison `v < 0` of a word whose signed reading is nonnegative is the false bit. -/
theorem cmpi_slt_zero_of_nonneg (v : BitVec 32) (h : 0 ≤ v.toInt) : IntOp.cmpi .slt v 0#32 = 0#1 := by
  have hs : v.slt 0#32 = false := by
    unfold BitVec.slt
    exact decide_eq_false (by simpa using h)
  show BitVec.ofBool (v.slt 0#32) = 0#1
  rw [hs]
  rfl

/-- The signed comparison `v < 0` of a word whose signed reading is negative is the true bit. -/
theorem cmpi_slt_zero_of_neg (v : BitVec 32) (h : v.toInt < 0) : IntOp.cmpi .slt v 0#32 = 1#1 := by
  have hs : v.slt 0#32 = true := by
    unfold BitVec.slt
    exact decide_eq_true (by simpa using h)
  show BitVec.ofBool (v.slt 0#32) = 1#1
  rw [hs]
  rfl

/-- A word whose signed reading is nonnegative is kept: the selection between `v + m` and `v` on `v < 0`
    returns `v`. -/
theorem select_wrap_of_nonneg (v m : BitVec 32) (h : 0 ≤ v.toInt) :
    Scalar.select (IntOp.cmpi .slt v 0#32) (IntOp.addi v m) v = v := by
  rw [cmpi_slt_zero_of_nonneg v h]
  exact ValueIdx.select_zero _ _

/-- The same for the constant `100000` both programs add. -/
theorem wrapIdx_of_nonneg (v : BitVec 32) (h : 0 ≤ v.toInt) :
    Scalar.select (IntOp.cmpi .slt v 0#32) (IntOp.addi v 100000#32) v = v :=
  select_wrap_of_nonneg v 100000#32 h

/-- A word whose signed reading is negative is replaced by `v + m`. -/
theorem select_wrap_of_neg (v m : BitVec 32) (h : v.toInt < 0) :
    Scalar.select (IntOp.cmpi .slt v 0#32) (IntOp.addi v m) v = v + m := by
  rw [cmpi_slt_zero_of_neg v h]
  exact ValueIdx.select_one _ _

end WrapIdx
-- ==== Proof.Spec.lean ====
/-
  The two programs as functions of the argument arrays, index by index, and their agreement.

  A hypergraph has 100000 vertices, 20000 hyperedges and 600000 incidences; incidence `e` names a
  vertex by the word `x6 e` and a hyperedge by the word `x7 e`.  A vertex's features pass through
  two affine layers (`whn`).  Then messages travel twice along the incidences:

    vertices → hyperedges:  hyperedge `h` collects, over the incidences `e` whose hyperedge word is
      `h`, the vertex's layer output times the vertex weight, normalised by the hyperedge's normaliser;
    one more affine layer on the hyperedges (`wheOf`);
    hyperedges → vertices:  vertex `v` collects, over the incidences whose vertex word is `v`, the
      hyperedge's layer output times the hyperedge weight, normalised by the vertex's normaliser.

  One program normalises each collected TOTAL once (`featK`, `outK`); the other normalises each
  MESSAGE before it is added (`featR`, `outR`).  A message is read from a table at the row its word
  names after a negative word has been wrapped and the result clamped into the table (`nrow`,
  `hrow`), whereas it is delivered to the row its unwrapped word names, if that is a row at all; for a
  delivered message the two rows are the same (`row_eq_of_toInt`), which is the only fact about the
  words the agreement needs.  With every array entry a real number and no normaliser zero the two
  programs agree at every index, by the law of `LibRealDivSum.lean` used once per pass.
-/
import Idealize.ShloMosaic.Lib.ValueIdx
import proofs.«126207_j46574625357936_2_alg».proof.Proof.LibRealDivSum
import proofs.«126207_j46574625357936_2_alg».proof.Proof.LibWrapIdx

noncomputable section

open scoped BigOperators

open Idealize.ShloMosaic Idealize.ShloMosaic.ValueIdx

namespace Hnhn

/-- An index word, or the word plus `n` when its signed reading is negative. -/
def wrap (n v : BitVec 32) : BitVec 32 := Scalar.select (IntOp.cmpi .slt v 0#32) (IntOp.addi v n) v

/-- A word whose signed reading is the row number `r < N` names, after wrapping and clamping into a table of
    `N` rows, the row `r` itself. -/
theorem row_eq_of_toInt (N : Nat) (n v : BitVec 32) (r : Nat) (hr : r < N) (h : v.toInt = (r : Int)) :
    min (wrap n v).toInt.toNat (N - 1) = r := by
  have h0 : 0 ≤ v.toInt := by rw [h]; exact Int.natCast_nonneg r
  unfold wrap
  rw [WrapIdx.select_wrap_of_nonneg v n h0, h, Int.toNat_natCast]
  omega

section Programs

variable (x0 : (⟨2, ![100000, 128]⟩ : Shape).Idx → EReal)
  (x2 x3 : (⟨2, ![100000, 1]⟩ : Shape).Idx → EReal)
  (x4 x5 : (⟨2, ![20000, 1]⟩ : Shape).Idx → EReal)
  (x6 x7 : (⟨1, ![600000]⟩ : Shape).Idx → BitVec 32)
  (x8 x10 x12 : (⟨2, ![128, 128]⟩ : Shape).Idx → EReal)
  (x9 x11 x13 : (⟨1, ![128]⟩ : Shape).Idx → EReal)

/-- The vertex row incidence `e` reads from. -/
def nrow (e : Fin 600000) : Fin 100000 :=
  ⟨min (wrap 100000#32 (x6 (ix1 e))).toInt.toNat (100000 - 1), by omega⟩

/-- The hyperedge row incidence `e` reads from. -/
def hrow (e : Fin 600000) : Fin 20000 :=
  ⟨min (wrap 20000#32 (x7 (ix1 e))).toInt.toNat (20000 - 1), by omega⟩

/-- The incidences delivered to hyperedge `h`. -/
def intoEdge (h : Fin 20000) : Finset (Fin 600000) :=
  Finset.univ.filter fun e : Fin 600000 => (x7 (ix1 e)).toInt = (h.val : Int)

/-- The incidences delivered to vertex `v`. -/
def intoVertex (v : Fin 100000) : Finset (Fin 600000) :=
  Finset.univ.filter fun e : Fin 600000 => (x6 (ix1 e)).toInt = (v.val : Int)

theorem hrow_of_mem {h : Fin 20000} {e : Fin 600000} (he : e ∈ intoEdge x7 h) : hrow x7 e = h := by
  have := (Finset.mem_filter.mp he).2
  exact Fin.ext (row_eq_of_toInt 20000 _ _ h.val h.isLt this)

theorem nrow_of_mem {v : Fin 100000} {e : Fin 600000} (he : e ∈ intoVertex x6 v) : nrow x6 e = v := by
  have := (Finset.mem_filter.mp he).2
  exact Fin.ext (row_eq_of_toInt 100000 _ _ v.val v.isLt this)

/-- Two affine layers on a vertex's features: `(x · W1ᵀ + b1) · Wveᵀ + bve` at `(v, j)`. -/
def whn (v : Fin 100000) (j : Fin 128) : EReal :=
  (∑ k : Fin 128, ((∑ k' : Fin 128, x0 (ix2 v k') * x8 (ix2 k k')) + x9 (ix1 k)) * x10 (ix2 j k)) + x11 (ix1 j)

/-- One affine layer on hyperedge features `fe`: `fe · Wevᵀ + bev` at `(h, j)`. -/
def wheOf (fe : Fin 20000 → Fin 128 → EReal) (h : Fin 20000) (j : Fin 128) : EReal :=
  (∑ k : Fin 128, fe h k * x12 (ix2 j k)) + x13 (ix1 j)

/-- Hyperedge features, the total normalised once. -/
def featK (h : Fin 20000) (j : Fin 128) : EReal :=
  Ideal.div (0 + ∑ e ∈ intoEdge x7 h, whn x0 x8 x10 x9 x11 (nrow x6 e) j * x2 (ix2 (nrow x6 e) 0)) (x5 (ix2 h 0))

/-- Hyperedge features, each message normalised. -/
def featR (h : Fin 20000) (j : Fin 128) : EReal :=
  0 + ∑ e ∈ intoEdge x7 h,
    Ideal.div (x2 (ix2 (nrow x6 e) 0)) (x5 (ix2 (hrow x7 e) 0)) * whn x0 x8 x10 x9 x11 (nrow x6 e) j

/-- The result, the total normalised once. -/
def outK (v : Fin 100000) (j : Fin 128) : EReal :=
  Ideal.div (0 + ∑ e ∈ intoVertex x6 v,
      wheOf x12 x13 (featK x0 x2 x5 x6 x7 x8 x10 x9 x11) (hrow x7 e) j * x4 (ix2 (hrow x7 e) 0)) (x3 (ix2 v 0))

/-- The result, each message normalised. -/
def outR (v : Fin 100000) (j : Fin 128) : EReal :=
  0 + ∑ e ∈ intoVertex x6 v,
    Ideal.div (x4 (ix2 (hrow x7 e) 0)) (x3 (ix2 (nrow x6 e) 0))
      * wheOf x12 x13 (featR x0 x2 x5 x6 x7 x8 x10 x9 x11) (hrow x7 e) j

variable (r0 : ∀ i, IsReal (x0 i)) (r2 : ∀ i, IsReal (x2 i)) (r3 : ∀ i, IsReal (x3 i)) (r4 : ∀ i, IsReal (x4 i))
  (r5 : ∀ i, IsReal (x5 i)) (r8 : ∀ i, IsReal (x8 i)) (r9 : ∀ i, IsReal (x9 i)) (r10 : ∀ i, IsReal (x10 i))
  (r11 : ∀ i, IsReal (x11 i)) (r12 : ∀ i, IsReal (x12 i)) (r13 : ∀ i, IsReal (x13 i))
  (n3 : ∀ i, x3 i ≠ 0) (n5 : ∀ i, x5 i ≠ 0)

include r0 r8 r9 r10 r11 in
theorem whn_real (v : Fin 100000) (j : Fin 128) : IsReal (whn x0 x8 x10 x9 x11 v j) :=
  (IsReal.sum _ _ fun k _ =>
    (((IsReal.sum _ _ fun k' _ => (r0 _).mul (r8 _)).add (r9 _)).mul (r10 _))).add (r11 _)

include r12 r13 in
theorem wheOf_real (fe : Fin 20000 → Fin 128 → EReal) (hfe : ∀ h k, IsReal (fe h k)) (h : Fin 20000) (j : Fin 128) :
    IsReal (wheOf x12 x13 fe h j) :=
  (IsReal.sum _ _ fun k _ => (hfe h k).mul (r12 _)).add (r13 _)

include r0 r2 r5 r8 r9 r10 r11 n5 in
/-- First pass: the two normalisations give the same hyperedge features. -/
theorem featK_eq_featR (h : Fin 20000) (j : Fin 128) :
    featK x0 x2 x5 x6 x7 x8 x10 x9 x11 h j = featR x0 x2 x5 x6 x7 x8 x10 x9 x11 h j :=
  div_sum_law (intoEdge x7 h) (fun e => x2 (ix2 (nrow x6 e) 0)) (fun e => whn x0 x8 x10 x9 x11 (nrow x6 e) j)
    (fun e => x5 (ix2 (hrow x7 e) 0)) (x5 (ix2 h 0)) (fun e => r2 _)
    (fun e => whn_real x0 x8 x10 x9 x11 r0 r8 r9 r10 r11 _ j) (r5 _) (n5 _)
    (fun e he => by rw [hrow_of_mem x7 he])

include r0 r2 r5 r8 r9 r10 r11 n5 in
theorem featK_real (h : Fin 20000) (j : Fin 128) : IsReal (featK x0 x2 x5 x6 x7 x8 x10 x9 x11 h j) :=
  IsReal.div (IsReal.zero.add (IsReal.sum _ _ fun e _ =>
    (whn_real x0 x8 x10 x9 x11 r0 r8 r9 r10 r11 _ j).mul (r2 _))) (r5 _) (n5 _)

include r0 r2 r3 r4 r5 r8 r9 r10 r11 r12 r13 n3 n5 in
/-- THE AGREEMENT: with real entries and nonzero normalisers the two programs give the same result. -/
theorem outK_eq_outR (v : Fin 100000) (j : Fin 128) :
    outK x0 x2 x3 x4 x5 x6 x7 x8 x10 x12 x9 x11 x13 v j = outR x0 x2 x3 x4 x5 x6 x7 x8 x10 x12 x9 x11 x13 v j := by
  have hfe : featK x0 x2 x5 x6 x7 x8 x10 x9 x11 = featR x0 x2 x5 x6 x7 x8 x10 x9 x11 :=
    funext fun h => funext fun k => featK_eq_featR x0 x2 x5 x6 x7 x8 x10 x9 x11 r0 r2 r5 r8 r9 r10 r11 n5 h k
  unfold outR
  rw [← hfe]
  exact div_sum_law (intoVertex x6 v) (fun e => x4 (ix2 (hrow x7 e) 0))
    (fun e => wheOf x12 x13 (featK x0 x2 x5 x6 x7 x8 x10 x9 x11) (hrow x7 e) j)
    (fun e => x3 (ix2 (nrow x6 e) 0)) (x3 (ix2 v 0)) (fun e => r4 _)
    (fun e => wheOf_real x12 x13 r12 r13 _
      (fun h k => featK_real x0 x2 x5 x6 x7 x8 x10 x9 x11 r0 r2 r5 r8 r9 r10 r11 n5 h k) _ j) (r3 _) (n3 _)
    (fun e he => by rw [nrow_of_mem x6 he])

end Programs

end Hnhn

end
-- ==== Proof.Finite.lean ====
/-
  The precondition read back.

  The precondition is a single bit: the conjunction, over the float argument arrays, of "every element has
  absolute value below +∞", together with "every element is above 0" for the two arrays of normalisers.  Over the
  extended reals the first says that the element is neither +∞ nor -∞, that is, that it is a real number; the second
  gives in particular that the element is not 0.  Each conjunct is a reduction by "and" of an array of comparison
  bits down to one bit, and a reduction by "and" that came out 1 met only 1s, so each conjunct holds elementwise.
-/
import proofs.«126207_j46574625357936_2_alg».proof.Pre_finite_inputs
import proofs.«126207_j46574625357936_2_alg».proof.Proof.LibRealDivSum
import Idealize.ShloMosaic.Lib.ReduceAll

noncomputable section

open Idealize.ShloMosaic

namespace Hnhn

open Cert.Pre_finite_inputs

/-- The shape of a scalar has exactly one index. -/
instance : Subsingleton S_.Idx := ⟨fun a b => funext fun d => d.elim0⟩

/-- The word of +∞ denotes the top element. -/
theorem ofBits_inf_f32 : Ideal.ofBits .f32 0x7F800000#32 = (⊤ : EReal) := by simp [Ideal.ofBits, Ideal.ieee]

/-- The zero word denotes 0. -/
theorem ofBits_zero_f32' : Ideal.ofBits .f32 0x00000000#32 = (0 : EReal) := by simp [Ideal.ofBits, Ideal.ieee]

/-- A strict "less than" comparison bit that is 1 says the order relation holds. -/
theorem lt_of_cmp_olt {x y : EReal} (h : Ideal.cmp .olt x y = 1#1) : x < y := by
  by_contra hn
  simp [Ideal.cmp, hn] at h

/-- A strict "greater than" comparison bit that is 1 says the order relation holds. -/
theorem lt_of_cmp_ogt {x y : EReal} (h : Ideal.cmp .ogt x y = 1#1) : y < x := by
  by_contra hn
  simp [Ideal.cmp, hn] at h

/-- An extended real whose absolute value max x (-x) is below +∞ is a real number: it is neither infinity. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

variable {S : Shape} {axes : List (Fin S.rank)}

/-- ONE CONJUNCT, finiteness: if all(|x| < +∞) came out 1, every element of x is a real number. -/
theorem isReal_of_all_finite (x : FVec Ideal S .f32) (hb : S_.BroadcastsInDim S (![] : Fin 0 → Fin S.rank))
    (hr : S.ReducesTo axes S_) (hu : 0 < S_.numel) (j : S_.Idx)
    (e : Host.reduce IntOp.andi
          (cmpf .olt (Host.absf x) (broadcastInDim S ![] hb (constant (F := Ideal) S_ .f32 0x7F800000#32)))
          (constantI S_ 1 1#1) hr hu j = 1#1) :
    ∀ i, IsReal (x i) := by
  intro i
  have h1 := Host.reduce_andi_all _ _ hr hu j e i
  have h2 : Ideal.cmp .olt (max (x i) (-(x i))) (Ideal.ofBits .f32 0x7F800000#32) = 1#1 := h1
  rw [ofBits_inf_f32] at h2
  exact isReal_of_abs_lt_top _ (lt_of_cmp_olt h2)

/-- ONE CONJUNCT, positivity: if all(x > 0) came out 1, no element of x is 0. -/
theorem ne_zero_of_all_pos (x : FVec Ideal S .f32) (hb : S_.BroadcastsInDim S (![] : Fin 0 → Fin S.rank))
    (hr : S.ReducesTo axes S_) (hu : 0 < S_.numel) (j : S_.Idx)
    (e : Host.reduce IntOp.andi
          (cmpf .ogt x (broadcastInDim S ![] hb (constant (F := Ideal) S_ .f32 0x00000000#32)))
          (constantI S_ 1 1#1) hr hu j = 1#1) :
    ∀ i, x i ≠ 0 := by
  intro i
  have h1 := Host.reduce_andi_all _ _ hr hu j e i
  have h2 : Ideal.cmp .ogt (x i) (Ideal.ofBits .f32 0x00000000#32) = 1#1 := h1
  rw [ofBits_zero_f32'] at h2
  exact ne_of_gt (lt_of_cmp_ogt h2)

/-- The "and" of two one-bit scalars is 1 exactly when both are. -/
theorem andi_apply_eq_one (a b : IVec S_ 1) (j : S_.Idx) : andi a b j = 1#1 ↔ a j = 1#1 ∧ b j = 1#1 :=
  IntOp.andi_eq_one

/-- What the precondition gives: the eleven float arrays the programs read are arrays of real numbers, and the two
    arrays of normalisers have no zero element. -/
structure PreFacts (a0 : FVec Ideal S100000x128 .f32) (a2 a3 : FVec Ideal S100000x1 .f32)
    (a4 a5 : FVec Ideal S20000x1 .f32) (a8 : FVec Ideal S128x128 .f32) (a9 : FVec Ideal S128 .f32)
    (a10 : FVec Ideal S128x128 .f32) (a11 : FVec Ideal S128 .f32) (a12 : FVec Ideal S128x128 .f32)
    (a13 : FVec Ideal S128 .f32) : Prop where
  real0 : ∀ i, IsReal (a0 i)
  real2 : ∀ i, IsReal (a2 i)
  real3 : ∀ i, IsReal (a3 i)
  real4 : ∀ i, IsReal (a4 i)
  real5 : ∀ i, IsReal (a5 i)
  real8 : ∀ i, IsReal (a8 i)
  real9 : ∀ i, IsReal (a9 i)
  real10 : ∀ i, IsReal (a10 i)
  real11 : ∀ i, IsReal (a11 i)
  real12 : ∀ i, IsReal (a12 i)
  real13 : ∀ i, IsReal (a13 i)
  ne3 : ∀ i, a3 i ≠ 0
  ne5 : ∀ i, a5 i ≠ 0

/-- THE PRECONDITION DECODED. -/
theorem pre_facts [Facts] (a0 : FVec Ideal S100000x128 .f32) (a1 : FVec Ideal S20000x128 .f32)
    (a2 a3 : FVec Ideal S100000x1 .f32) (a4 a5 : FVec Ideal S20000x1 .f32) (a6 a7 : IVec S600000 32)
    (a8 : FVec Ideal S128x128 .f32) (a9 : FVec Ideal S128 .f32) (a10 : FVec Ideal S128x128 .f32)
    (a11 : FVec Ideal S128 .f32) (a12 : FVec Ideal S128x128 .f32) (a13 : FVec Ideal S128 .f32)
    (h : Cert.Pre_finite_inputs.fn (F := Ideal) a0 a1 a2 a3 a4 a5 a6 a7 a8 a9 a10 a11 a12 a13 = fun _ => 1#1) :
    PreFacts a0 a2 a3 a4 a5 a8 a9 a10 a11 a12 a13 := by
  have e := congrFun h (fun a => a.elim0)
  dsimp only [fn, fn_part1, fn_part2, fn_part3] at e
  simp only [andi_apply_eq_one] at e
  obtain ⟨⟨⟨⟨⟨⟨⟨⟨⟨⟨⟨⟨⟨h0, -⟩, h2⟩, h3⟩, h4⟩, h5⟩, h8⟩, h9⟩, h10⟩, h11⟩, h12⟩, h13⟩, p3⟩, p5⟩ := e
  exact
    { real0 := isReal_of_all_finite a0 _ _ _ _ h0
      real2 := isReal_of_all_finite a2 _ _ _ _ h2
      real3 := isReal_of_all_finite a3 _ _ _ _ h3
      real4 := isReal_of_all_finite a4 _ _ _ _ h4
      real5 := isReal_of_all_finite a5 _ _ _ _ h5
      real8 := isReal_of_all_finite a8 _ _ _ _ h8
      real9 := isReal_of_all_finite a9 _ _ _ _ h9
      real10 := isReal_of_all_finite a10 _ _ _ _ h10
      real11 := isReal_of_all_finite a11 _ _ _ _ h11
      real12 := isReal_of_all_finite a12 _ _ _ _ h12
      real13 := isReal_of_all_finite a13 _ _ _ _ h13
      ne3 := ne_zero_of_all_pos a3 _ _ _ _ p3
      ne5 := ne_zero_of_all_pos a5 _ _ _ _ p5 }

end Hnhn

end
-- ==== Proof.KernelRun.lean ====
/-
  The idealised kernel's run, with the result named.

  The program is five stretches in a row: host operations, a grid of blocks (the vertex layers),
  host operations (gather, collect, normalise), a second grid of blocks (the hyperedge layer), and
  host operations again.  Running the stretches one after the other from the launch memory leaves
  every buffer the program may name at the contents the fifth stretch computes (`W5`): each
  stretch of host operations applies its operations to what it finds, and each grid leaves its
  output array at what its blocks write back and every other buffer alone.  Here that is stated
  for ALL such buffers at once, so that the result buffer and the fourteen argument arrays are
  read off the same run.
-/
import proofs.«126207_j46574625357936_2_alg».proof.Proof.Gen.KernelIdeal.Frame

set_option maxRecDepth 16384

noncomputable section

namespace Hnhn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` terminates, nothing faulting, with every
    buffer the program may name at the contents the last stretch of host operations computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The result buffer after the run: what the last stretch of host operations leaves in it. -/
def result (c : Dev nD) : Buf (Elt F) ((c.tc : Thread nD τ).loc main_v36) := W5 m ρ c (Proc.devRef .tc main_v36)

/-- The run, with the result buffer named and the fourteen argument arrays as launched. -/
theorem run : θ_run defs (onTc (τ := τ) (main (F := F))) ⟨m, fun _ => 0, ρ⟩ (fun r => ∀ c : Dev nD,
      r.2.mem ((c.tc : Thread nD τ).loc main_v36) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v36 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩)
    (run_all m ρ)

end Hnhn.KernelRun

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.Payload.lean ====
/-
  What one block of each grid computes, read at an index.

  Both bodies load whole blocks, compute, and store one whole block.  At row `p` and column `q` of
  the block:

    vertex body:     ((∑ₖ ((∑ₖ' x(p,k')·w1(k',k)) + b1(0,k)) · w2(k,q)) + b2(0,q)) · s(p,0)
    hyperedge body:  ((∑ₖ x(p,k)·w(k,q)) + b(0,q)) · s(p,0)

  A matrix product into a zero accumulator is the textbook sum over the contracted index, a change
  of float format is the identity on the extended reals, a bias row `[1,128]` is copied down the
  rows and a scale column `[2000,1]` along the columns.
-/
import proofs.«126207_j46574625357936_2_alg».proof.Proof.Gen.KernelIdeal.Skeleton
import proofs.«126207_j46574625357936_2_alg».proof.Proof.LibDotRows
import proofs.«126207_j46574625357936_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Hnhn

open Cert.KernelIdeal Cert.KernelIdeal.Gen
open Idealize.ShloMosaic Idealize.ShloMosaic.ValueIdx

/-- The vertex body's stored block at `(p, q)`. -/
theorem pay0_apply (v0 : Vec Ideal S2000x128 .f32) (v2 : Vec Ideal S128x128 .bf16) (v5 : Vec Ideal S1x128 .f32)
    (v10 : Vec Ideal S128x128 .bf16) (v13 : Vec Ideal S1x128 .f32) (v17 : Vec Ideal S2000x1 .f32)
    (p : Fin 2000) (q : Fin 128) :
    k0_pay1 (F := Ideal) v0 v2 v5 v10 v13 v17 (ix2 p q)
      = ((∑ k : Fin 128, ((∑ k' : Fin 128, v0 (ix2 p k') * v2 (ix2 k' k)) + v5 (ix2 (0 : Fin 1) k)) * v10 (ix2 k q))
          + v13 (ix2 (0 : Fin 1) q)) * v17 (ix2 p (0 : Fin 1)) := by
  simp only [k0_pay1, truncf_apply, mulf_apply, addf_apply, shapeCast_self,
    broadcastTo_a1_ab_apply, broadcastTo_1b_ab_apply,
    matmul_zero_rows dot_S2000x128_S128x128_S2000x128_1_0_0_1_n_n none rfl rfl
      (fun _ _ => rfl) (fun _ _ => rfl) (fun _ _ => rfl) (fun _ _ => rfl)]

/-- The hyperedge body's stored block at `(p, q)`. -/
theorem pay1_apply (v0 : Vec Ideal S2000x128 .f32) (v3 : Vec Ideal S128x128 .bf16) (v6 : Vec Ideal S1x128 .f32)
    (v10 : Vec Ideal S2000x1 .f32) (p : Fin 2000) (q : Fin 128) :
    k1_pay1 (F := Ideal) v0 v3 v6 v10 (ix2 p q)
      = ((∑ k : Fin 128, v0 (ix2 p k) * v3 (ix2 k q)) + v6 (ix2 (0 : Fin 1) q)) * v10 (ix2 p (0 : Fin 1)) := by
  simp only [k1_pay1, truncf_apply, mulf_apply, addf_apply, shapeCast_self,
    broadcastTo_a1_ab_apply, broadcastTo_1b_ab_apply,
    matmul_zero_rows dot_S2000x128_S128x128_S2000x128_1_0_0_1_n_n none rfl rfl
      (fun _ _ => rfl) (fun _ _ => rfl) (fun _ _ => rfl) (fun _ _ => rfl)]

end Hnhn

end
-- ==== Proof.Region0.lean ====
/-
  The first grid: what its output array holds when the grid has run.

  The grid has 50 points; point `t` works on rows `2000·t … 2000·t + 1999` of the vertex table.  It
  fetches that block of the features and of the scale column, the two weight matrices and bias rows
  whole, computes the two affine layers and the scaling of `Payload.lean` on the block, and writes the
  block back.  Row `p` of block `t` is row `2000·t + p` of the table, and the 50 blocks tile the
  100000 rows, so afterwards the output array is ONE function of the arrays the grid found (`G`):
  at `(r, c)`

      ((∑ₖ ((∑ₖ' a(r,k')·w1(k',k)) + b1(0,k)) · w2(k,c)) + b2(0,c)) · s(r,0).
-/
import proofs.«126207_j46574625357936_2_alg».proof.Proof.Gen.KernelIdeal.Frame
import proofs.«126207_j46574625357936_2_alg».proof.Proof.Payload

set_option maxRecDepth 16384

noncomputable section

open scoped BigOperators

namespace Hnhn.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the grid finds. -/
def G (a : S100000x128.Idx → Elt Ideal .f32) (w1 : S128x128.Idx → Elt Ideal .bf16) (b1 : S1x128.Idx → Elt Ideal .f32)
    (w2 : S128x128.Idx → Elt Ideal .bf16) (b2 : S1x128.Idx → Elt Ideal .f32) (s : S100000x1.Idx → Elt Ideal .f32) :
    S100000x128.Idx → Elt Ideal .bf16 := fun i =>
  ((∑ k : Fin 128, ((∑ k' : Fin 128, a (ix2 (i 0) k') * w1 (ix2 k' k)) + b1 (ix2 (0 : Fin 1) k)) * w2 (ix2 k (i 1)))
      + b2 (ix2 (0 : Fin 1) (i 1))) * s (ix2 (i 0) (0 : Fin 1))

/-- The body stores its one payload over the whole block. -/
theorem out_eq (x0 : Vec Ideal S2000x128 .f32) (x1 : Vec Ideal S128x128 .bf16) (x2 : Vec Ideal S1x128 .f32)
    (x3 : Vec Ideal S128x128 .bf16) (x4 : Vec Ideal S1x128 .f32) (x5 : Vec Ideal S2000x1 .f32) :
    out0_6 (F := Ideal) x0 x1 x2 x3 x4 x5 = k0_pay1 x0 x1 x2 x3 x4 x5 := by
  unfold out0_6
  rw [View.canon_unit_zero hz]
  simp only [View.ld_unit_zero (S := S2000x128) hz, View.ld_unit_zero (S := S128x128) hz,
    View.ld_unit_zero (S := S1x128) hz, View.ld_unit_zero (S := S2000x1) hz]

/-- The printed index maps over the grid.  The output block of point `t` is block `t` along the rows. -/
theorem idx_out : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- So are the feature block and the scale block. -/
theorem idx_moving : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, win0_0.index t (0 : Fin 2) = t.val ∧ win0_0.index t (1 : Fin 2) = 0
    ∧ win0_5.index t (0 : Fin 2) = t.val ∧ win0_5.index t (1 : Fin 2) = 0)

/-- The weights and the biases are the one whole block at every point. -/
theorem idx_fixed : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0)

/-- The payload of point `t` on the blocks of ANY six arrays is `G` of those arrays at the table index the block
    entry sits at: row `p` of block `t` is row `2000·t + p`, and the column is the same. -/
theorem blk_read (a : S100000x128.Idx → Elt Ideal .f32) (w1 : S128x128.Idx → Elt Ideal .bf16)
    (b1 : S1x128.Idx → Elt Ideal .f32) (w2 : S128x128.Idx → Elt Ideal .bf16) (b2 : S1x128.Idx → Elt Ideal .f32)
    (s : S100000x1.Idx → Elt Ideal .f32) (t : Fin cfg0.N) (p : Fin 2000) (q : Fin 128) :
    k0_pay1 (F := Ideal) (((cfg0.win 0).blk t).view.read (Elt Ideal) a) (((cfg0.win 1).blk t).view.read (Elt Ideal) w1)
        (((cfg0.win 2).blk t).view.read (Elt Ideal) b1) (((cfg0.win 3).blk t).view.read (Elt Ideal) w2)
        (((cfg0.win 4).blk t).view.read (Elt Ideal) b2) (((cfg0.win 5).blk t).view.read (Elt Ideal) s) (ix2 p q)
      = G a w1 b1 w2 b2 s (((cfg0.win 6).blk t).view.emb (ix2 p q)) := by
  obtain ⟨f60, f61⟩ := idx_out t
  obtain ⟨f00, f01, f50, f51⟩ := idx_moving t
  obtain ⟨f10, f11, f20, f21, f30, f31, f40, f41⟩ := idx_fixed t
  refine (pay0_apply _ _ _ _ _ _ p q).trans ?_
  have hr : (((cfg0.win 6).blk t).view.emb (ix2 p q) (0 : Fin 2)).val = t.val * 2000 + p.val := by
    show win0_6.index t (0 : Fin 2) * 2000 + 1 * p.val = _
    omega
  have hc : ((cfg0.win 6).blk t).view.emb (ix2 p q) (1 : Fin 2) = q := by
    apply Fin.ext
    show win0_6.index t (1 : Fin 2) * 128 + 1 * q.val = _
    omega
  have e0 : ∀ k' : Fin 128, ((cfg0.win 0).blk t).view.emb (ix2 p k')
      = ix2 (((cfg0.win 6).blk t).view.emb (ix2 p q) (0 : Fin 2)) k' := fun k' => by
    funext d; apply Fin.ext
    match d with
    | ⟨0, _⟩ => show win0_0.index t (0 : Fin 2) * 2000 + 1 * p.val = _; rw [hr]; omega
    | ⟨1, _⟩ => show win0_0.index t (1 : Fin 2) * 128 + 1 * k'.val = k'.val; omega
  have e5 : ((cfg0.win 5).blk t).view.emb (ix2 p (0 : Fin 1))
      = ix2 (((cfg0.win 6).blk t).view.emb (ix2 p q) (0 : Fin 2)) (0 : Fin 1) := by
    funext d; apply Fin.ext
    match d with
    | ⟨0, _⟩ => show win0_5.index t (0 : Fin 2) * 2000 + 1 * p.val = _; rw [hr]; omega
    | ⟨1, _⟩ => show win0_5.index t (1 : Fin 2) * 1 + 1 * 0 = 0; omega
  have e1 : ∀ x y : Fin 128, ((cfg0.win 1).blk t).view.emb (ix2 x y) = ix2 x y := fun x y => by
    funext d; apply Fin.ext
    match d with
    | ⟨0, _⟩ => show win0_1.index t (0 : Fin 2) * 128 + 1 * x.val = x.val; omega
    | ⟨1, _⟩ => show win0_1.index t (1 : Fin 2) * 128 + 1 * y.val = y.val; omega
  have e3 : ∀ x y : Fin 128, ((cfg0.win 3).blk t).view.emb (ix2 x y) = ix2 x y := fun x y => by
    funext d; apply Fin.ext
    match d with
    | ⟨0, _⟩ => show win0_3.index t (0 : Fin 2) * 128 + 1 * x.val = x.val; omega
    | ⟨1, _⟩ => show win0_3.index t (1 : Fin 2) * 128 + 1 * y.val = y.val; omega
  have e2 : ∀ y : Fin 128, ((cfg0.win 2).blk t).view.emb (ix2 (0 : Fin 1) y) = ix2 (0 : Fin 1) y := fun y => by
    funext d; apply Fin.ext
    match d with
    | ⟨0, _⟩ => show win0_2.index t (0 : Fin 2) * 1 + 1 * 0 = 0; omega
    | ⟨1, _⟩ => show win0_2.index t (1 : Fin 2) * 128 + 1 * y.val = y.val; omega
  have e4 : ∀ y : Fin 128, ((cfg0.win 4).blk t).view.emb (ix2 (0 : Fin 1) y) = ix2 (0 : Fin 1) y := fun y => by
    funext d; apply Fin.ext
    match d with
    | ⟨0, _⟩ => show win0_4.index t (0 : Fin 2) * 1 + 1 * 0 = 0; omega
    | ⟨1, _⟩ => show win0_4.index t (1 : Fin 2) * 128 + 1 * y.val = y.val; omega
  show ((∑ k : Fin 128, ((∑ k' : Fin 128, a (((cfg0.win 0).blk t).view.emb (ix2 p k'))
          * w1 (((cfg0.win 1).blk t).view.emb (ix2 k' k))) + b1 (((cfg0.win 2).blk t).view.emb (ix2 (0 : Fin 1) k)))
          * w2 (((cfg0.win 3).blk t).view.emb (ix2 k q))) + b2 (((cfg0.win 4).blk t).view.emb (ix2 (0 : Fin 1) q)))
        * s (((cfg0.win 5).blk t).view.emb (ix2 p (0 : Fin 1)))
      = G a w1 b1 w2 b2 s (((cfg0.win 6).blk t).view.emb (ix2 p q))
  unfold G
  simp only [e0, e1, e2, e3, e4, e5, hc]
  rfl

/-- WHAT POINT `t` WRITES BACK is block `t` of `G` of the arrays the grid finds. -/
theorem flushed_eq (c : Dev nD) (t : Fin cfg0.N) :
    (dat0 V c).flushed 6 t = ((cfg0.win 6).blk t).view.read (Elt Ideal)
      (G (V c main_arg0) (V c main_v1) (V c main_v6) (V c main_v3) (V c main_v7) (V c main_arg2)) := by
  show (cfg0.win 6).cut (grid0.coords t) ((dat0 V c).after 6 t) = _
  rw [after0_6, out_eq]
  funext j
  obtain ⟨p, q, rfl⟩ : ∃ (p : Fin 2000) (q : Fin 128), j = ix2 p q := ⟨j 0, j 1, eq_ix2 j⟩
  exact blk_read (V c main_arg0) (V c main_v1) (V c main_v6) (V c main_v3) (V c main_v7) (V c main_arg2) t p q

/-- An index of the table is in point `t`'s block iff its row is among the block's 2000 rows. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v9).slice (win0_6.rect t)).set ↔ _
  rw [View.set_slice_whole, Rect.mem_set_unit]
  exact Iff.rfl

/-- The 50 blocks tile the table: row `r` is in block `r / 2000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨f60, f61⟩ := idx_out t
  have ht : t.val = (i 0).val / 2000 := rfl
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- THE OUTPUT ARRAY after the grid is `G` of the arrays the grid found. -/
theorem final (c : Dev nD) : (dat0 V c).arrAt 6 cfg0.N
    = G (V c main_arg0) (V c main_v1) (V c main_v6) (V c main_v3) (V c main_v7) (V c main_arg2) :=
  (dat0 V c).arrAt_eq_of_cover 6 _ (fun t _ => flushed_eq V c t) cover

end Hnhn.Region0

end
-- ==== Proof.Region1.lean ====
/-
  The second grid: what its output array holds when the grid has run.

  The grid has 10 points; point `t` works on rows `2000·t … 2000·t + 1999` of the hyperedge table.  It
  fetches that block of the hyperedge features and of the scale column, the weight matrix and the bias
  row whole, computes the affine layer and the scaling of `Payload.lean` on the block, and writes the
  block back.  The 10 blocks tile the 20000 rows, so afterwards the output array is ONE function of the
  arrays the grid found (`G`): at `(r, c)`

      ((∑ₖ a(r,k)·w(k,c)) + b(0,c)) · s(r,0).
-/
import proofs.«126207_j46574625357936_2_alg».proof.Proof.Gen.KernelIdeal.Frame
import proofs.«126207_j46574625357936_2_alg».proof.Proof.Payload

set_option maxRecDepth 16384

noncomputable section

open scoped BigOperators

namespace Hnhn.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the grid finds. -/
def G (a : S20000x128.Idx → Elt Ideal .f32) (w : S128x128.Idx → Elt Ideal .bf16) (b : S1x128.Idx → Elt Ideal .f32)
    (s : S20000x1.Idx → Elt Ideal .f32) : S20000x128.Idx → Elt Ideal .bf16 := fun i =>
  ((∑ k : Fin 128, a (ix2 (i 0) k) * w (ix2 k (i 1))) + b (ix2 (0 : Fin 1) (i 1))) * s (ix2 (i 0) (0 : Fin 1))

/-- The body stores its one payload over the whole block. -/
theorem out_eq (x0 : Vec Ideal S2000x128 .f32) (x1 : Vec Ideal S128x128 .bf16) (x2 : Vec Ideal S1x128 .f32)
    (x3 : Vec Ideal S2000x1 .f32) : out1_4 (F := Ideal) x0 x1 x2 x3 = k1_pay1 x0 x1 x2 x3 := by
  unfold out1_4
  rw [View.canon_unit_zero hz]
  simp only [View.ld_unit_zero (S := S2000x128) hz, View.ld_unit_zero (S := S128x128) hz,
    View.ld_unit_zero (S := S1x128) hz, View.ld_unit_zero (S := S2000x1) hz]

/-- The printed index maps over the grid.  The output block of point `t` is block `t` along the rows. -/
theorem idx_out : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- So are the feature block and the scale block. -/
theorem idx_moving : ∀ t : Fin cfg1.N, win1_0.index t (0 : Fin 2) = t.val ∧ win1_0.index t (1 : Fin 2) = 0
    ∧ win1_3.index t (0 : Fin 2) = t.val ∧ win1_3.index t (1 : Fin 2) = 0 :=
  (by decide +kernel : ∀ t : Fin grid1.N, win1_0.index t (0 : Fin 2) = t.val ∧ win1_0.index t (1 : Fin 2) = 0
    ∧ win1_3.index t (0 : Fin 2) = t.val ∧ win1_3.index t (1 : Fin 2) = 0)

/-- The weight and the bias are the one whole block at every point. -/
theorem idx_fixed : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, win1_1.index t (0 : Fin 2) = 0 ∧ win1_1.index t (1 : Fin 2) = 0
    ∧ win1_2.index t (0 : Fin 2) = 0 ∧ win1_2.index t (1 : Fin 2) = 0)

/-- The payload of point `t` on the blocks of ANY four arrays is `G` of those arrays at the table index the block
    entry sits at: row `p` of block `t` is row `2000·t + p`, and the column is the same. -/
theorem blk_read (a : S20000x128.Idx → Elt Ideal .f32) (w : S128x128.Idx → Elt Ideal .bf16)
    (b : S1x128.Idx → Elt Ideal .f32) (s : S20000x1.Idx → Elt Ideal .f32) (t : Fin cfg1.N) (p : Fin 2000) (q : Fin 128) :
    k1_pay1 (F := Ideal) (((cfg1.win 0).blk t).view.read (Elt Ideal) a) (((cfg1.win 1).blk t).view.read (Elt Ideal) w)
        (((cfg1.win 2).blk t).view.read (Elt Ideal) b) (((cfg1.win 3).blk t).view.read (Elt Ideal) s) (ix2 p q)
      = G a w b s (((cfg1.win 4).blk t).view.emb (ix2 p q)) := by
  obtain ⟨f40, f41⟩ := idx_out t
  obtain ⟨f00, f01, f30, f31⟩ := idx_moving t
  obtain ⟨f10, f11, f20, f21⟩ := idx_fixed t
  refine (pay1_apply _ _ _ _ p q).trans ?_
  have hr : (((cfg1.win 4).blk t).view.emb (ix2 p q) (0 : Fin 2)).val = t.val * 2000 + p.val := by
    show win1_4.index t (0 : Fin 2) * 2000 + 1 * p.val = _
    omega
  have hc : ((cfg1.win 4).blk t).view.emb (ix2 p q) (1 : Fin 2) = q := by
    apply Fin.ext
    show win1_4.index t (1 : Fin 2) * 128 + 1 * q.val = _
    omega
  have e0 : ∀ k : Fin 128, ((cfg1.win 0).blk t).view.emb (ix2 p k)
      = ix2 (((cfg1.win 4).blk t).view.emb (ix2 p q) (0 : Fin 2)) k := fun k => by
    funext d; apply Fin.ext
    match d with
    | ⟨0, _⟩ => show win1_0.index t (0 : Fin 2) * 2000 + 1 * p.val = _; rw [hr]; omega
    | ⟨1, _⟩ => show win1_0.index t (1 : Fin 2) * 128 + 1 * k.val = k.val; omega
  have e3 : ((cfg1.win 3).blk t).view.emb (ix2 p (0 : Fin 1))
      = ix2 (((cfg1.win 4).blk t).view.emb (ix2 p q) (0 : Fin 2)) (0 : Fin 1) := by
    funext d; apply Fin.ext
    match d with
    | ⟨0, _⟩ => show win1_3.index t (0 : Fin 2) * 2000 + 1 * p.val = _; rw [hr]; omega
    | ⟨1, _⟩ => show win1_3.index t (1 : Fin 2) * 1 + 1 * 0 = 0; omega
  have e1 : ∀ x y : Fin 128, ((cfg1.win 1).blk t).view.emb (ix2 x y) = ix2 x y := fun x y => by
    funext d; apply Fin.ext
    match d with
    | ⟨0, _⟩ => show win1_1.index t (0 : Fin 2) * 128 + 1 * x.val = x.val; omega
    | ⟨1, _⟩ => show win1_1.index t (1 : Fin 2) * 128 + 1 * y.val = y.val; omega
  have e2 : ∀ y : Fin 128, ((cfg1.win 2).blk t).view.emb (ix2 (0 : Fin 1) y) = ix2 (0 : Fin 1) y := fun y => by
    funext d; apply Fin.ext
    match d with
    | ⟨0, _⟩ => show win1_2.index t (0 : Fin 2) * 1 + 1 * 0 = 0; omega
    | ⟨1, _⟩ => show win1_2.index t (1 : Fin 2) * 128 + 1 * y.val = y.val; omega
  show ((∑ k : Fin 128, a (((cfg1.win 0).blk t).view.emb (ix2 p k)) * w (((cfg1.win 1).blk t).view.emb (ix2 k q)))
          + b (((cfg1.win 2).blk t).view.emb (ix2 (0 : Fin 1) q))) * s (((cfg1.win 3).blk t).view.emb (ix2 p (0 : Fin 1)))
      = G a w b s (((cfg1.win 4).blk t).view.emb (ix2 p q))
  unfold G
  simp only [e0, e1, e2, e3, hc]
  rfl

/-- WHAT POINT `t` WRITES BACK is block `t` of `G` of the arrays the grid finds. -/
theorem flushed_eq (c : Dev nD) (t : Fin cfg1.N) :
    (dat1 V c).flushed 4 t = ((cfg1.win 4).blk t).view.read (Elt Ideal)
      (G (V c main_v22) (V c main_v5) (V c main_v8) (V c main_arg4)) := by
  show (cfg1.win 4).cut (grid1.coords t) ((dat1 V c).after 4 t) = _
  rw [after1_4, out_eq]
  funext j
  obtain ⟨p, q, rfl⟩ : ∃ (p : Fin 2000) (q : Fin 128), j = ix2 p q := ⟨j 0, j 1, eq_ix2 j⟩
  exact blk_read (V c main_v22) (V c main_v5) (V c main_v8) (V c main_arg4) t p q

/-- An index of the table is in point `t`'s block iff its row is among the block's 2000 rows. -/
theorem mem_blk (t : Fin cfg1.N) (i : S20000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v23).slice (win1_4.rect t)).set ↔ _
  rw [View.set_slice_whole, Rect.mem_set_unit]
  exact Iff.rfl

/-- The 10 blocks tile the table: row `r` is in block `r / 2000`. -/
theorem cover (i : S20000x128.Idx) :
    ∃ t : Fin cfg1.N, (cfg1.win 4).flush t = true ∧ i ∈ ((cfg1.win 4).blk t).view.set := by
  have hi0 : (i 0).val < 20000 := (i 0).isLt
  have hi1 : (i 1).val < 128 := (i 1).isLt
  let t : Fin cfg1.N := ⟨(i 0).val / 2000, by show (i 0).val / 2000 < 10; omega⟩
  obtain ⟨f40, f41⟩ := idx_out t
  have ht : t.val = (i 0).val / 2000 := rfl
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- THE OUTPUT ARRAY after the grid is `G` of the arrays the grid found. -/
theorem final (c : Dev nD) : (dat1 V c).arrAt 4 cfg1.N
    = G (V c main_v22) (V c main_v5) (V c main_v8) (V c main_arg4) :=
  (dat1 V c).arrAt_eq_of_cover 4 _ (fun t _ => flushed_eq V c t) cover

end Hnhn.Region1

end
-- ==== Proof.Walk.lean ====
/-
  What the buffers hold at the boundaries between the five stretches of the program.

  A stretch of host operations changes only the buffers its operations write; a grid changes only its
  output array.  So an argument array is, at every boundary, what it was at the launch; the transposed
  weights and the bias rows written by the first stretch stay as written; the first grid's output array
  is the whole-array function of `Region0.lean` of what the first stretch left, and the second grid's
  that of `Region1.lean` of what the second stretch left.
-/
import proofs.«126207_j46574625357936_2_alg».proof.Proof.Gen.KernelIdeal.Frame
import proofs.«126207_j46574625357936_2_alg».proof.Proof.Region0
import proofs.«126207_j46574625357936_2_alg».proof.Proof.Region1
import Idealize.ShloMosaic.Lib.StableHlo.Run

set_option maxRecDepth 16384

noncomputable section

namespace Hnhn.Walk

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg) (c : Dev nD)

/-! ## After the first stretch of host operations -/

theorem W1_arg0 : W1 (F := Ideal) m ρ c (Proc.devRef .tc main_arg0) = m ((c : Thread nD τ).loc main_arg0) := by
  show StableHlo.after hostOps0 (W0 m ρ c) (Proc.devRef .tc main_arg0) = _
  after_results_simp <;> rfl
theorem W1_arg2 : W1 (F := Ideal) m ρ c (Proc.devRef .tc main_arg2) = m ((c : Thread nD τ).loc main_arg2) := by
  show StableHlo.after hostOps0 (W0 m ρ c) (Proc.devRef .tc main_arg2) = _
  after_results_simp <;> rfl
theorem W1_arg3 : W1 (F := Ideal) m ρ c (Proc.devRef .tc main_arg3) = m ((c : Thread nD τ).loc main_arg3) := by
  show StableHlo.after hostOps0 (W0 m ρ c) (Proc.devRef .tc main_arg3) = _
  after_results_simp <;> rfl
theorem W1_arg4 : W1 (F := Ideal) m ρ c (Proc.devRef .tc main_arg4) = m ((c : Thread nD τ).loc main_arg4) := by
  show StableHlo.after hostOps0 (W0 m ρ c) (Proc.devRef .tc main_arg4) = _
  after_results_simp <;> rfl
theorem W1_arg5 : W1 (F := Ideal) m ρ c (Proc.devRef .tc main_arg5) = m ((c : Thread nD τ).loc main_arg5) := by
  show StableHlo.after hostOps0 (W0 m ρ c) (Proc.devRef .tc main_arg5) = _
  after_results_simp <;> rfl
theorem W1_arg6 : W1 (F := Ideal) m ρ c (Proc.devRef .tc main_arg6) = m ((c : Thread nD τ).loc main_arg6) := by
  show StableHlo.after hostOps0 (W0 m ρ c) (Proc.devRef .tc main_arg6) = _
  after_results_simp <;> rfl
theorem W1_arg7 : W1 (F := Ideal) m ρ c (Proc.devRef .tc main_arg7) = m ((c : Thread nD τ).loc main_arg7) := by
  show StableHlo.after hostOps0 (W0 m ρ c) (Proc.devRef .tc main_arg7) = _
  after_results_simp <;> rfl

/-- A weight matrix, transposed, in the narrower float format. -/
theorem W1_v1 : W1 (F := Ideal) m ρ c (Proc.devRef .tc main_v1)
    = (truncf .bf16 (transpose S128x128 [1, 0] ((m ((c : Thread nD τ).loc main_arg8)) : FVec Ideal S128x128 .f32) transposes_S128x128_S128x128_1_0) bitsLt_bf16_f32 : FVec Ideal S128x128 .bf16) := by
  show StableHlo.after hostOps0 (W0 m ρ c) (Proc.devRef .tc main_v1) = _
  after_results_simp <;> rfl
/-- A weight matrix, transposed, in the narrower float format. -/
theorem W1_v3 : W1 (F := Ideal) m ρ c (Proc.devRef .tc main_v3)
    = (truncf .bf16 (transpose S128x128 [1, 0] ((m ((c : Thread nD τ).loc main_arg10)) : FVec Ideal S128x128 .f32) transposes_S128x128_S128x128_1_0) bitsLt_bf16_f32 : FVec Ideal S128x128 .bf16) := by
  show StableHlo.after hostOps0 (W0 m ρ c) (Proc.devRef .tc main_v3) = _
  after_results_simp <;> rfl
/-- A weight matrix, transposed, in the narrower float format. -/
theorem W1_v5 : W1 (F := Ideal) m ρ c (Proc.devRef .tc main_v5)
    = (truncf .bf16 (transpose S128x128 [1, 0] ((m ((c : Thread nD τ).loc main_arg12)) : FVec Ideal S128x128 .f32) transposes_S128x128_S128x128_1_0) bitsLt_bf16_f32 : FVec Ideal S128x128 .bf16) := by
  show StableHlo.after hostOps0 (W0 m ρ c) (Proc.devRef .tc main_v5) = _
  after_results_simp <;> rfl

/-- A bias vector laid out as a row. -/
theorem W1_v6 : W1 (F := Ideal) m ρ c (Proc.devRef .tc main_v6)
    = shapeCast S1x128 (m ((c : Thread nD τ).loc main_arg9)) shapeCasts_S128_S1x128 := by
  show StableHlo.after hostOps0 (W0 m ρ c) (Proc.devRef .tc main_v6) = _
  after_results_simp <;> rfl
/-- A bias vector laid out as a row. -/
theorem W1_v7 : W1 (F := Ideal) m ρ c (Proc.devRef .tc main_v7)
    = shapeCast S1x128 (m ((c : Thread nD τ).loc main_arg11)) shapeCasts_S128_S1x128 := by
  show StableHlo.after hostOps0 (W0 m ρ c) (Proc.devRef .tc main_v7) = _
  after_results_simp <;> rfl
/-- A bias vector laid out as a row. -/
theorem W1_v8 : W1 (F := Ideal) m ρ c (Proc.devRef .tc main_v8)
    = shapeCast S1x128 (m ((c : Thread nD τ).loc main_arg13)) shapeCasts_S128_S1x128 := by
  show StableHlo.after hostOps0 (W0 m ρ c) (Proc.devRef .tc main_v8) = _
  after_results_simp <;> rfl

/-! ## After the first grid -/

/-- The first grid's output array: the two affine layers and the scaling, of the launch arrays. -/
theorem W2_v9 : W2 (F := Ideal) m ρ c (Proc.devRef .tc main_v9)
    = Region0.G (m ((c : Thread nD τ).loc main_arg0))
        ((truncf .bf16 (transpose S128x128 [1, 0] ((m ((c : Thread nD τ).loc main_arg8)) : FVec Ideal S128x128 .f32) transposes_S128x128_S128x128_1_0) bitsLt_bf16_f32 : FVec Ideal S128x128 .bf16))
        (shapeCast S1x128 (m ((c : Thread nD τ).loc main_arg9)) shapeCasts_S128_S1x128)
        ((truncf .bf16 (transpose S128x128 [1, 0] ((m ((c : Thread nD τ).loc main_arg10)) : FVec Ideal S128x128 .f32) transposes_S128x128_S128x128_1_0) bitsLt_bf16_f32 : FVec Ideal S128x128 .bf16))
        (shapeCast S1x128 (m ((c : Thread nD τ).loc main_arg11)) shapeCasts_S128_S1x128)
        (m ((c : Thread nD τ).loc main_arg2)) := by
  refine ((W2_arr m ρ c 6).trans (Region0.final (V1 m ρ) c)).trans ?_
  show Region0.G (W1 m ρ c (Proc.devRef .tc main_arg0)) (W1 m ρ c (Proc.devRef .tc main_v1)) (W1 m ρ c (Proc.devRef .tc main_v6))
    (W1 m ρ c (Proc.devRef .tc main_v3)) (W1 m ρ c (Proc.devRef .tc main_v7)) (W1 m ρ c (Proc.devRef .tc main_arg2)) = _
  rw [W1_arg0, W1_v1, W1_v6, W1_v3, W1_v7, W1_arg2]

theorem W2_arg3 : W2 (F := Ideal) m ρ c (Proc.devRef .tc main_arg3) = m ((c : Thread nD τ).loc main_arg3) :=
  (W2_of_ne m ρ c main_arg3 (by decide)).trans (W1_arg3 m ρ c)
theorem W2_arg4 : W2 (F := Ideal) m ρ c (Proc.devRef .tc main_arg4) = m ((c : Thread nD τ).loc main_arg4) :=
  (W2_of_ne m ρ c main_arg4 (by decide)).trans (W1_arg4 m ρ c)
theorem W2_arg5 : W2 (F := Ideal) m ρ c (Proc.devRef .tc main_arg5) = m ((c : Thread nD τ).loc main_arg5) :=
  (W2_of_ne m ρ c main_arg5 (by decide)).trans (W1_arg5 m ρ c)
theorem W2_arg6 : W2 (F := Ideal) m ρ c (Proc.devRef .tc main_arg6) = m ((c : Thread nD τ).loc main_arg6) :=
  (W2_of_ne m ρ c main_arg6 (by decide)).trans (W1_arg6 m ρ c)
theorem W2_arg7 : W2 (F := Ideal) m ρ c (Proc.devRef .tc main_arg7) = m ((c : Thread nD τ).loc main_arg7) :=
  (W2_of_ne m ρ c main_arg7 (by decide)).trans (W1_arg7 m ρ c)

theorem W2_v5 : W2 (F := Ideal) m ρ c (Proc.devRef .tc main_v5)
    = (truncf .bf16 (transpose S128x128 [1, 0] ((m ((c : Thread nD τ).loc main_arg12)) : FVec Ideal S128x128 .f32) transposes_S128x128_S128x128_1_0) bitsLt_bf16_f32 : FVec Ideal S128x128 .bf16) :=
  (W2_of_ne m ρ c main_v5 (by decide)).trans (W1_v5 m ρ c)

theorem W2_v8 : W2 (F := Ideal) m ρ c (Proc.devRef .tc main_v8) = shapeCast S1x128 (m ((c : Thread nD τ).loc main_arg13)) shapeCasts_S128_S1x128 :=
  (W2_of_ne m ρ c main_v8 (by decide)).trans (W1_v8 m ρ c)

/-! ## After the second stretch of host operations -/

theorem W3_arg3 : W3 (F := Ideal) m ρ c (Proc.devRef .tc main_arg3) = m ((c : Thread nD τ).loc main_arg3) := by
  refine Eq.trans ?_ (W2_arg3 m ρ c)
  show StableHlo.after hostOps1 (W2 m ρ c) (Proc.devRef .tc main_arg3) = _
  after_results_simp <;> rfl
theorem W3_arg4 : W3 (F := Ideal) m ρ c (Proc.devRef .tc main_arg4) = m ((c : Thread nD τ).loc main_arg4) := by
  refine Eq.trans ?_ (W2_arg4 m ρ c)
  show StableHlo.after hostOps1 (W2 m ρ c) (Proc.devRef .tc main_arg4) = _
  after_results_simp <;> rfl
theorem W3_arg6 : W3 (F := Ideal) m ρ c (Proc.devRef .tc main_arg6) = m ((c : Thread nD τ).loc main_arg6) := by
  refine Eq.trans ?_ (W2_arg6 m ρ c)
  show StableHlo.after hostOps1 (W2 m ρ c) (Proc.devRef .tc main_arg6) = _
  after_results_simp <;> rfl
theorem W3_arg7 : W3 (F := Ideal) m ρ c (Proc.devRef .tc main_arg7) = m ((c : Thread nD τ).loc main_arg7) := by
  refine Eq.trans ?_ (W2_arg7 m ρ c)
  show StableHlo.after hostOps1 (W2 m ρ c) (Proc.devRef .tc main_arg7) = _
  after_results_simp <;> rfl

theorem W3_v5 : W3 (F := Ideal) m ρ c (Proc.devRef .tc main_v5)
    = (truncf .bf16 (transpose S128x128 [1, 0] ((m ((c : Thread nD τ).loc main_arg12)) : FVec Ideal S128x128 .f32) transposes_S128x128_S128x128_1_0) bitsLt_bf16_f32 : FVec Ideal S128x128 .bf16) := by
  refine Eq.trans ?_ (W2_v5 m ρ c)
  show StableHlo.after hostOps1 (W2 m ρ c) (Proc.devRef .tc main_v5) = _
  after_results_simp <;> rfl

theorem W3_v8 : W3 (F := Ideal) m ρ c (Proc.devRef .tc main_v8) = shapeCast S1x128 (m ((c : Thread nD τ).loc main_arg13)) shapeCasts_S128_S1x128 := by
  refine Eq.trans ?_ (W2_v8 m ρ c)
  show StableHlo.after hostOps1 (W2 m ρ c) (Proc.devRef .tc main_v8) = _
  after_results_simp <;> rfl

/-- The hyperedge features the second grid finds: gather, collect, normalise, of the first grid's output. -/
theorem W3_v22 : W3 (F := Ideal) m ρ c (Proc.devRef .tc main_v22)
    = Host.divf
        (Host.scatterAdd scatter_S20000x128_S600000x1_S600000x128_1_0_0_1
          (broadcastInDim S20000x128 ![] bcast_S_S20000x128 (constant (F := Ideal) S_ .f32 0#32))
          (broadcastInDim S600000x1 ![0] bcast_S600000_S600000x1_0 (m ((c : Thread nD τ).loc main_arg7)))
          (extf .f32 (Host.gather gather_S100000x128_S600000x1_S600000x128_1_0_n_n_0_1_1128 (W2 m ρ c (Proc.devRef .tc main_v9))
            (broadcastInDim S600000x1 ![0] bcast_S600000_S600000x1_0
              (select (cmpi .slt (m ((c : Thread nD τ).loc main_arg6)) (broadcastInDim S600000 ![] bcast_S_S600000 (constantI S_ 32 0#32)))
                (addi (m ((c : Thread nD τ).loc main_arg6)) (broadcastInDim S600000 ![] bcast_S_S600000 (constantI S_ 32 100000#32))) (m ((c : Thread nD τ).loc main_arg6))))) bitsLt_bf16_f32))
        (broadcastInDim S20000x128 ![0, 1] bcast_S20000x1_S20000x128_0_1 (m ((c : Thread nD τ).loc main_arg5))) := by
  rw [← W2_arg5 m ρ c, ← W2_arg6 m ρ c, ← W2_arg7 m ρ c]
  show StableHlo.after hostOps1 (W2 m ρ c) (Proc.devRef .tc main_v22) = _
  after_results_simp <;> rfl

/-! ## After the second grid -/

/-- The second grid's output array: the affine layer and the scaling, of what the second stretch left. -/
theorem W4_v23 : W4 (F := Ideal) m ρ c (Proc.devRef .tc main_v23)
    = Region1.G (W3 m ρ c (Proc.devRef .tc main_v22))
        ((truncf .bf16 (transpose S128x128 [1, 0] ((m ((c : Thread nD τ).loc main_arg12)) : FVec Ideal S128x128 .f32) transposes_S128x128_S128x128_1_0) bitsLt_bf16_f32 : FVec Ideal S128x128 .bf16))
        (shapeCast S1x128 (m ((c : Thread nD τ).loc main_arg13)) shapeCasts_S128_S1x128)
        (m ((c : Thread nD τ).loc main_arg4)) := by
  refine ((W4_arr m ρ c 4).trans (Region1.final (V3 m ρ) c)).trans ?_
  show Region1.G (W3 m ρ c (Proc.devRef .tc main_v22)) (W3 m ρ c (Proc.devRef .tc main_v5)) (W3 m ρ c (Proc.devRef .tc main_v8))
    (W3 m ρ c (Proc.devRef .tc main_arg4)) = _
  rw [W3_v5, W3_v8, W3_arg4]

theorem W4_arg3 : W4 (F := Ideal) m ρ c (Proc.devRef .tc main_arg3) = m ((c : Thread nD τ).loc main_arg3) :=
  (W4_of_ne m ρ c main_arg3 (by decide)).trans (W3_arg3 m ρ c)
theorem W4_arg6 : W4 (F := Ideal) m ρ c (Proc.devRef .tc main_arg6) = m ((c : Thread nD τ).loc main_arg6) :=
  (W4_of_ne m ρ c main_arg6 (by decide)).trans (W3_arg6 m ρ c)
theorem W4_arg7 : W4 (F := Ideal) m ρ c (Proc.devRef .tc main_arg7) = m ((c : Thread nD τ).loc main_arg7) :=
  (W4_of_ne m ρ c main_arg7 (by decide)).trans (W3_arg7 m ρ c)

/-! ## After the last stretch of host operations -/

/-- The result: gather, collect, normalise, of the second grid's output. -/
theorem W5_v36 : W5 (F := Ideal) m ρ c (Proc.devRef .tc main_v36)
    = Host.divf
        (Host.scatterAdd scatter_S100000x128_S600000x1_S600000x128_1_0_0_1
          (broadcastInDim S100000x128 ![] bcast_S_S100000x128 (constant (F := Ideal) S_ .f32 0#32))
          (broadcastInDim S600000x1 ![0] bcast_S600000_S600000x1_0 (m ((c : Thread nD τ).loc main_arg6)))
          (extf .f32 (Host.gather gather_S20000x128_S600000x1_S600000x128_1_0_n_n_0_1_1128 (W4 m ρ c (Proc.devRef .tc main_v23))
            (broadcastInDim S600000x1 ![0] bcast_S600000_S600000x1_0
              (select (cmpi .slt (m ((c : Thread nD τ).loc main_arg7)) (broadcastInDim S600000 ![] bcast_S_S600000 (constantI S_ 32 0#32)))
                (addi (m ((c : Thread nD τ).loc main_arg7)) (broadcastInDim S600000 ![] bcast_S_S600000 (constantI S_ 32 20000#32))) (m ((c : Thread nD τ).loc main_arg7))))) bitsLt_bf16_f32))
        (broadcastInDim S100000x128 ![0, 1] bcast_S100000x1_S100000x128_0_1 (m ((c : Thread nD τ).loc main_arg3))) := by
  rw [← W4_arg3 m ρ c, ← W4_arg6 m ρ c, ← W4_arg7 m ρ c]
  show StableHlo.after hostOps2 (W4 m ρ c) (Proc.devRef .tc main_v36) = _
  after_results_simp <;> rfl

end Hnhn.Walk

end
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.HostStages.lean ====
/-
  The host operations around the two grids, read at an index.

  Between the grids the program gathers, for every incidence, a row of a table (the row its word names
  after wrapping a negative word and clamping), adds the gathered rows into the rows the UNWRAPPED words
  name (a word that names no row is dropped), starting from zero, and divides every row of the total by
  that row's normaliser.  Read at row `h` and column `j` this is

      (0 + ∑ over the incidences e delivered to h of table(row(e), j)) / norm(h, 0).

  Before the first grid the weight matrices are transposed and the bias vectors laid out as rows; a change
  of float format is the identity on the extended reals.
-/
import proofs.«126207_j46574625357936_2_alg».proof.Proof.Gen.KernelIdeal
import proofs.«126207_j46574625357936_2_alg».proof.Proof.Spec
import proofs.«126207_j46574625357936_2_alg».proof.Proof.LibGatherRows
import proofs.«126207_j46574625357936_2_alg».proof.Proof.LibScatterRows
import proofs.«126207_j46574625357936_2_alg».proof.Proof.LibHostScatterIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Hnhn.Host

open Cert.KernelIdeal Cert.KernelIdeal.Gen
open Idealize.ShloMosaic Idealize.ShloMosaic.ValueIdx

/-- The host's quotient at an index is the quotient of the entries. -/
theorem _root_.Idealize.ShloMosaic.Host.divf_ideal_apply {s : Shape} {φ : FTy} (a b : FVec Ideal s φ) (i : s.Idx) :
    Host.divf (F := Ideal) a b i = Ideal.div (a i) (b i) := rfl

/-- A word vector laid out as a column reads, at `(e, 0)`, the vector at `e`. -/
theorem idxCol_apply {α : Type} (y : S600000.Idx → α) (e : Fin 600000) :
    broadcastInDim S600000x1 ![0] bcast_S600000_S600000x1_0 y (ix2 e 0) = y (ix1 e) :=
  broadcastInDim_apply _ bcast_S600000_S600000x1_0 y (ix2 e 0) (ix1 e) (fun a => match a with
    | ⟨0, _⟩ => by show e.val = if (600000 : Nat) = 1 then 0 else e.val; rw [if_neg (by decide)])

/-- A column `[n, 1]` copied along 128 columns reads, at `(h, j)`, the column at `h`. -/
theorem col_apply {α : Type} {n : Nat} (hb : (⟨2, ![n, 1]⟩ : Shape).BroadcastsInDim ⟨2, ![n, 128]⟩ ![0, 1])
    (y : (⟨2, ![n, 1]⟩ : Shape).Idx → α) (h : Fin n) (j : Fin 128) :
    broadcastInDim ⟨2, ![n, 128]⟩ ![0, 1] hb y (ix2 h j) = y (ix2 h 0) :=
  broadcastInDim_apply _ hb y (ix2 h j) (ix2 h 0) (fun a => match a with
    | ⟨0, _⟩ => by
      show h.val = if n = 1 then 0 else h.val
      split
      · have := h.isLt; omega
      · rfl
    | ⟨1, _⟩ => by show 0 = if (1 : Nat) = 1 then 0 else j.val; rw [if_pos rfl])

/-- The zero array the totals start from. -/
theorem zeros_apply {s : Shape} (hb : S_.BroadcastsInDim s (![] : Fin 0 → Fin s.rank)) (i : s.Idx) :
    broadcastInDim s ![] hb (constant (F := Ideal) S_ .f32 0#32) i = 0 := by
  rw [broadcastInDim_apply _ hb _ i (fun a => a.elim0) (fun a => a.elim0), constant_apply]
  exact Ideal.ofBits_zero_f32

/-- Vertices to hyperedges: gather rows of the vertex table, add them into the hyperedges, normalise each total. -/
theorem pass1_apply (table : FVec Ideal S100000x128 .bf16) (g s : IVec S600000 32) (norm : FVec Ideal S20000x1 .f32)
    (h : Fin 20000) (j : Fin 128) :
    Host.divf (F := Ideal)
        (Host.scatterAdd scatter_S20000x128_S600000x1_S600000x128_1_0_0_1
          (broadcastInDim S20000x128 ![] bcast_S_S20000x128 (constant (F := Ideal) S_ .f32 0#32))
          (broadcastInDim S600000x1 ![0] bcast_S600000_S600000x1_0 s)
          (extf .f32 (Host.gather gather_S100000x128_S600000x1_S600000x128_1_0_n_n_0_1_1128 table
            (broadcastInDim S600000x1 ![0] bcast_S600000_S600000x1_0
              (select (cmpi .slt g (broadcastInDim S600000 ![] bcast_S_S600000 (constantI S_ 32 0#32)))
                (addi g (broadcastInDim S600000 ![] bcast_S_S600000 (constantI S_ 32 100000#32))) g))) bitsLt_bf16_f32))
        (broadcastInDim S20000x128 ![0, 1] bcast_S20000x1_S20000x128_0_1 norm) (ix2 h j)
      = Ideal.div (0 + ∑ e ∈ Finset.univ.filter (fun e : Fin 600000 => (s (ix1 e)).toInt = (h.val : Int)),
          table (ix2 (nrow g e) j)) (norm (ix2 h 0)) := by
  rw [Host.divf_ideal_apply, Host.scatterAdd_ideal, ScatterRows.hostScatterAdd_rows2 _ rfl rfl rfl rfl,
    zeros_apply, col_apply bcast_S20000x1_S20000x128_0_1 norm h j]
  refine congrArg (fun t => Ideal.div (0 + t) (norm (ix2 h 0)))
    (Finset.sum_congr (Finset.filter_congr fun e _ => by rw [idxCol_apply]) fun e _ => ?_)
  rw [extf_apply, GatherRows.gather_rows2 _ (by norm_num) rfl rfl rfl rfl rfl rfl]
  refine congrArg (fun r => table (ix2 r j)) (Fin.ext ?_)
  show min ((broadcastInDim S600000x1 ![0] bcast_S600000_S600000x1_0
      (select (cmpi .slt g (broadcastInDim S600000 ![] bcast_S_S600000 (constantI S_ 32 0#32)))
        (addi g (broadcastInDim S600000 ![] bcast_S_S600000 (constantI S_ 32 100000#32))) g)) (ix2 e 0)).toInt.toNat (100000 - 1) = _
  rw [idxCol_apply]
  rfl

/-- Hyperedges to vertices: gather rows of the hyperedge table, add them into the vertices, normalise each total. -/
theorem pass2_apply (table : FVec Ideal S20000x128 .bf16) (g s : IVec S600000 32) (norm : FVec Ideal S100000x1 .f32)
    (h : Fin 100000) (j : Fin 128) :
    Host.divf (F := Ideal)
        (Host.scatterAdd scatter_S100000x128_S600000x1_S600000x128_1_0_0_1
          (broadcastInDim S100000x128 ![] bcast_S_S100000x128 (constant (F := Ideal) S_ .f32 0#32))
          (broadcastInDim S600000x1 ![0] bcast_S600000_S600000x1_0 s)
          (extf .f32 (Host.gather gather_S20000x128_S600000x1_S600000x128_1_0_n_n_0_1_1128 table
            (broadcastInDim S600000x1 ![0] bcast_S600000_S600000x1_0
              (select (cmpi .slt g (broadcastInDim S600000 ![] bcast_S_S600000 (constantI S_ 32 0#32)))
                (addi g (broadcastInDim S600000 ![] bcast_S_S600000 (constantI S_ 32 20000#32))) g))) bitsLt_bf16_f32))
        (broadcastInDim S100000x128 ![0, 1] bcast_S100000x1_S100000x128_0_1 norm) (ix2 h j)
      = Ideal.div (0 + ∑ e ∈ Finset.univ.filter (fun e : Fin 600000 => (s (ix1 e)).toInt = (h.val : Int)),
          table (ix2 (hrow g e) j)) (norm (ix2 h 0)) := by
  rw [Host.divf_ideal_apply, Host.scatterAdd_ideal, ScatterRows.hostScatterAdd_rows2 _ rfl rfl rfl rfl,
    zeros_apply, col_apply bcast_S100000x1_S100000x128_0_1 norm h j]
  refine congrArg (fun t => Ideal.div (0 + t) (norm (ix2 h 0)))
    (Finset.sum_congr (Finset.filter_congr fun e _ => by rw [idxCol_apply]) fun e _ => ?_)
  rw [extf_apply, GatherRows.gather_rows2 _ (by norm_num) rfl rfl rfl rfl rfl rfl]
  refine congrArg (fun r => table (ix2 r j)) (Fin.ext ?_)
  show min ((broadcastInDim S600000x1 ![0] bcast_S600000_S600000x1_0
      (select (cmpi .slt g (broadcastInDim S600000 ![] bcast_S_S600000 (constantI S_ 32 0#32)))
        (addi g (broadcastInDim S600000 ![] bcast_S_S600000 (constantI S_ 32 20000#32))) g)) (ix2 e 0)).toInt.toNat (20000 - 1) = _
  rw [idxCol_apply]
  rfl

/-- A weight matrix transposed (and its float format changed) reads, at `(a, b)`, the matrix at `(b, a)`. -/
theorem weightT_apply (x : FVec Ideal S128x128 .f32) (a b : Fin 128) :
    (truncf .bf16 (transpose S128x128 [1, 0] x transposes_S128x128_S128x128_1_0) bitsLt_bf16_f32 : FVec Ideal S128x128 .bf16)
      (ix2 a b) = x (ix2 b a) := by
  rw [truncf_apply]
  exact transpose_apply [1, 0] x transposes_S128x128_S128x128_1_0 (ix2 a b) (ix2 b a) (fun d => match d with
    | ⟨0, _⟩ => rfl
    | ⟨1, _⟩ => rfl)

/-- A bias vector laid out as a row reads, at `(0, k)`, the vector at `k`. -/
theorem biasRow_apply {α : Type} (x : S128.Idx → α) (k : Fin 128) :
    shapeCast S1x128 x shapeCasts_S128_S1x128 (ix2 (0 : Fin 1) k) = x (ix1 k) :=
  shapeCast_apply x shapeCasts_S128_S1x128 _ _ (by
    rw [Shape.rowMajor_val_two, Shape.rowMajor_val_one]
    show k.val = 0 * 128 + k.val
    omega)

end Hnhn.Host

end
-- ==== Proof.KernelValue.lean ====
/-
  The idealised kernel's result, index by index.

  Reading the five stretches of the program in order, at an index:

    the first grid's output at `(v, j)` is the two affine layers on vertex `v` times the vertex weight;
    the second stretch gathers its rows, collects them into the hyperedges and normalises every total
      once: the hyperedge features `featK`;
    the second grid's output at `(h, j)` is the affine layer on those features times the hyperedge weight;
    the last stretch gathers its rows, collects them into the vertices and normalises every total once:
      the result `outK`.
-/
import proofs.«126207_j46574625357936_2_alg».proof.Proof.KernelRun
import proofs.«126207_j46574625357936_2_alg».proof.Proof.Walk
import proofs.«126207_j46574625357936_2_alg».proof.Proof.HostStages
import proofs.«126207_j46574625357936_2_alg».proof.Proof.Spec

set_option maxRecDepth 16384

noncomputable section

open scoped BigOperators

namespace Hnhn.KernelValue

open Cert.KernelIdeal Cert.KernelIdeal.Gen
open Idealize.ShloMosaic Idealize.ShloMosaic.TcCoe Idealize.ShloMosaic.ValueIdx
open Idealize.SL Idealize.SL.Sem

/-- The first grid's whole-array function, of transposed weights and bias rows, at `(v, j)`: the two affine layers
    on vertex `v`, times the scale column. -/
theorem G0_apply (a : S100000x128.Idx → Elt Ideal .f32) (x8 x10 : FVec Ideal S128x128 .f32)
    (x9 x11 : S128.Idx → Elt Ideal .f32) (s : S100000x1.Idx → Elt Ideal .f32) (v : Fin 100000) (j : Fin 128) :
    Region0.G a (truncf .bf16 (transpose S128x128 [1, 0] x8 transposes_S128x128_S128x128_1_0) bitsLt_bf16_f32 : FVec Ideal S128x128 .bf16) (shapeCast S1x128 x9 shapeCasts_S128_S1x128) (truncf .bf16 (transpose S128x128 [1, 0] x10 transposes_S128x128_S128x128_1_0) bitsLt_bf16_f32 : FVec Ideal S128x128 .bf16)
        (shapeCast S1x128 x11 shapeCasts_S128_S1x128) s (ix2 v j)
      = whn a x8 x10 x9 x11 v j * s (ix2 v 0) := by
  show ((∑ k : Fin 128, ((∑ k' : Fin 128, a (ix2 v k') * (truncf .bf16 (transpose S128x128 [1, 0] x8 transposes_S128x128_S128x128_1_0) bitsLt_bf16_f32 : FVec Ideal S128x128 .bf16) (ix2 k' k))
        + shapeCast S1x128 x9 shapeCasts_S128_S1x128 (ix2 (0 : Fin 1) k)) * (truncf .bf16 (transpose S128x128 [1, 0] x10 transposes_S128x128_S128x128_1_0) bitsLt_bf16_f32 : FVec Ideal S128x128 .bf16) (ix2 k j))
        + shapeCast S1x128 x11 shapeCasts_S128_S1x128 (ix2 (0 : Fin 1) j)) * s (ix2 v (0 : Fin 1)) = _
  rw [Host.biasRow_apply x11 j]
  unfold whn
  refine congrArg (fun t => (t + x11 (ix1 j)) * s (ix2 v 0)) (Finset.sum_congr rfl fun k _ => ?_)
  rw [Host.weightT_apply x10 k j, Host.biasRow_apply x9 k]
  refine congrArg (fun t => (t + x9 (ix1 k)) * x10 (ix2 j k)) (Finset.sum_congr rfl fun k' _ => ?_)
  rw [Host.weightT_apply x8 k' k]

/-- The second grid's whole-array function at `(h, j)`: the affine layer on the features it finds, times the scale
    column. -/
theorem G1_apply (a : S20000x128.Idx → Elt Ideal .f32) (x12 : FVec Ideal S128x128 .f32) (x13 : S128.Idx → Elt Ideal .f32)
    (s : S20000x1.Idx → Elt Ideal .f32) (fe : Fin 20000 → Fin 128 → EReal) (hfe : ∀ h k, a (ix2 h k) = fe h k)
    (h : Fin 20000) (j : Fin 128) :
    Region1.G a (truncf .bf16 (transpose S128x128 [1, 0] x12 transposes_S128x128_S128x128_1_0) bitsLt_bf16_f32 : FVec Ideal S128x128 .bf16) (shapeCast S1x128 x13 shapeCasts_S128_S1x128) s (ix2 h j)
      = wheOf x12 x13 fe h j * s (ix2 h 0) := by
  show ((∑ k : Fin 128, a (ix2 h k) * (truncf .bf16 (transpose S128x128 [1, 0] x12 transposes_S128x128_S128x128_1_0) bitsLt_bf16_f32 : FVec Ideal S128x128 .bf16) (ix2 k j))
        + shapeCast S1x128 x13 shapeCasts_S128_S1x128 (ix2 (0 : Fin 1) j)) * s (ix2 h (0 : Fin 1)) = _
  rw [Host.biasRow_apply x13 j]
  unfold wheOf
  refine congrArg (fun t => (t + x13 (ix1 j)) * s (ix2 h 0)) (Finset.sum_congr rfl fun k _ => ?_)
  rw [Host.weightT_apply x12 k j, hfe h k]

variable (m : (ℓ : Loc nD τ sig) → Buf (Elt Ideal) ℓ) (ρ : Dev nD → PrngReg) (c : Dev nD)

/-- The first grid's output at `(v, j)`: the two affine layers on vertex `v`, times the vertex weight. -/
theorem tableV_apply (v : Fin 100000) (j : Fin 128) :
    W2 (F := Ideal) m ρ c (Proc.devRef .tc main_v9) (ix2 v j)
      = whn (m ((c : Thread nD τ).loc main_arg0)) (m ((c : Thread nD τ).loc main_arg8)) (m ((c : Thread nD τ).loc main_arg10)) (m ((c : Thread nD τ).loc main_arg9)) (m ((c : Thread nD τ).loc main_arg11)) v j * (m ((c : Thread nD τ).loc main_arg2)) (ix2 v 0) := by
  rw [Walk.W2_v9]
  exact G0_apply _ _ _ _ _ _ v j

/-- The hyperedge features the second grid finds. -/
theorem feat_apply (h : Fin 20000) (j : Fin 128) :
    W3 (F := Ideal) m ρ c (Proc.devRef .tc main_v22) (ix2 h j)
      = featK (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg9)) (m ((c : Thread nD τ).loc main_arg11)) h j := by
  rw [Walk.W3_v22]
  refine (Host.pass1_apply _ _ _ _ h j).trans ?_
  unfold featK intoEdge
  exact congrArg (fun t => Ideal.div (0 + t) ((m ((c : Thread nD τ).loc main_arg5)) (ix2 h 0)))
    (Finset.sum_congr rfl fun e _ => tableV_apply m ρ c _ j)

/-- The second grid's output at `(h, j)`: the affine layer on the hyperedge features, times the hyperedge weight. -/
theorem tableE_apply (h : Fin 20000) (j : Fin 128) :
    W4 (F := Ideal) m ρ c (Proc.devRef .tc main_v23) (ix2 h j)
      = wheOf (m ((c : Thread nD τ).loc main_arg12)) (m ((c : Thread nD τ).loc main_arg13))
          (featK (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg9)) (m ((c : Thread nD τ).loc main_arg11))) h j * (m ((c : Thread nD τ).loc main_arg4)) (ix2 h 0) := by
  rw [Walk.W4_v23]
  exact G1_apply _ _ _ _ _ (fun h k => feat_apply m ρ c h k) h j

/-- THE RESULT at `(v, j)`. -/
theorem result_apply (v : Fin 100000) (j : Fin 128) :
    KernelRun.result (F := Ideal) m ρ c (ix2 v j)
      = outK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg12)) (m ((c : Thread nD τ).loc main_arg9)) (m ((c : Thread nD τ).loc main_arg11)) (m ((c : Thread nD τ).loc main_arg13)) v j := by
  show W5 (F := Ideal) m ρ c (Proc.devRef .tc main_v36) (ix2 v j) = _
  rw [Walk.W5_v36]
  refine (Host.pass2_apply _ _ _ _ v j).trans ?_
  unfold outK intoVertex
  exact congrArg (fun t => Ideal.div (0 + t) ((m ((c : Thread nD τ).loc main_arg3)) (ix2 v 0)))
    (Finset.sum_congr rfl fun e _ => tableE_apply m ρ c _ j)

end Hnhn.KernelValue

end
-- ==== Proof.RefValue.lean ====
/-
  The reference program read at an index.

  The result of the reference program, as the generated reading module states it one operation at a time, is
  identified here with the closed formula `Hnhn.outR` of the specification: the two affine layers on the vertex
  features (`whn`), then twice a row gather along the incidences, a scaling of each gathered row by the quotient
  of a gathered weight and a gathered normaliser, and a segment sum into the rows the unwrapped incidence words name.

  The work is reading only.  A gather's row number is the incidence word after a negative word has been wrapped,
  read signed and clamped into the table (`nrow`, `hrow`); a segment sum delivers an update to the row its raw
  word names, read signed (`intoEdge`, `intoVertex`); a product of matrices against a transposed weight matrix
  `W` pairs the left operand at `(r, k)` with `W (j, k)`.  No arithmetic law is used.
-/
import proofs.«126207_j46574625357936_2_alg».proof.Proof.Spec
import proofs.«126207_j46574625357936_2_alg».proof.Proof.LibGatherRows
import proofs.«126207_j46574625357936_2_alg».proof.Proof.LibScatterRows
import proofs.«126207_j46574625357936_2_alg».proof.Proof.LibHostScatterIdeal
import proofs.«126207_j46574625357936_2_alg».proof.Proof.Gen.ReferenceIdeal.Read

noncomputable section

open scoped BigOperators

open Idealize.ShloMosaic Idealize.ShloMosaic.ValueIdx Cert.ReferenceIdeal Cert.ReferenceIdeal.Gen Cert.ReferenceIdeal.Read

namespace Hnhn.RefValue

/-- Two rank-2 indices with the same coordinates are equal. -/
theorem idx2_ext {n0 n1 : Nat} (p q : (⟨2, ![n0, n1]⟩ : Shape).Idx) (h0 : p 0 = q 0) (h1 : p 1 = q 1) : p = q := by
  funext a
  match a with
  | ⟨0, _⟩ => exact h0
  | ⟨1, _⟩ => exact h1

/-- Two rank-1 indices with the same coordinate are equal. -/
theorem idx1_ext {n : Nat} (p q : (⟨1, ![n]⟩ : Shape).Idx) (h0 : p 0 = q 0) : p = q := by
  funext a
  match a with
  | ⟨0, _⟩ => exact h0

section Stages

variable (x0 : (⟨2, ![100000, 128]⟩ : Shape).Idx → EReal)
  (x2 x3 : (⟨2, ![100000, 1]⟩ : Shape).Idx → EReal)
  (x4 x5 : (⟨2, ![20000, 1]⟩ : Shape).Idx → EReal)
  (x6 x7 : (⟨1, ![600000]⟩ : Shape).Idx → BitVec 32)
  (x8 x10 x12 : (⟨2, ![128, 128]⟩ : Shape).Idx → EReal)
  (x9 x11 x13 : (⟨1, ![128]⟩ : Shape).Idx → EReal)

/-! ## The index words of the six gathers

Each gather's column of row numbers is, at `(e, 0)`, the incidence word of `e` wrapped when negative. -/

theorem v15_at (e : Fin 600000) : val_main_v15 (F := Ideal) x6 (ix2 e 0) = wrap 100000#32 (x6 (ix1 e)) := by
  rw [val_main_v15_apply, val_main_v14_apply, val_main_v11_apply, val_main_v13_apply, val_main_v10_apply,
    val_main_v12_apply, val_main_c_apply, val_main_c_0_apply, idx1_ext (idx_main_v15 (ix2 e 0)) (ix1 e) rfl]
  rfl

theorem v22_at (e : Fin 600000) : val_main_v22 (F := Ideal) x7 (ix2 e 0) = wrap 20000#32 (x7 (ix1 e)) := by
  rw [val_main_v22_apply, val_main_v21_apply, val_main_v18_apply, val_main_v20_apply, val_main_v17_apply,
    val_main_v19_apply, val_main_c_1_apply, val_main_c_2_apply, idx1_ext (idx_main_v22 (ix2 e 0)) (ix1 e) rfl]
  rfl

theorem v30_at (e : Fin 600000) : val_main_v30 (F := Ideal) x6 (ix2 e 0) = wrap 100000#32 (x6 (ix1 e)) := by
  rw [val_main_v30_apply, val_main_v29_apply, val_main_v26_apply, val_main_v28_apply, val_main_v25_apply,
    val_main_v27_apply, val_main_c_3_apply, val_main_c_4_apply, idx1_ext (idx_main_v30 (ix2 e 0)) (ix1 e) rfl]
  rfl

theorem v47_at (e : Fin 600000) : val_main_v47 (F := Ideal) x7 (ix2 e 0) = wrap 20000#32 (x7 (ix1 e)) := by
  rw [val_main_v47_apply, val_main_v46_apply, val_main_v43_apply, val_main_v45_apply, val_main_v42_apply,
    val_main_v44_apply, val_main_c_5_apply, val_main_c_6_apply, idx1_ext (idx_main_v47 (ix2 e 0)) (ix1 e) rfl]
  rfl

theorem v54_at (e : Fin 600000) : val_main_v54 (F := Ideal) x6 (ix2 e 0) = wrap 100000#32 (x6 (ix1 e)) := by
  rw [val_main_v54_apply, val_main_v53_apply, val_main_v50_apply, val_main_v52_apply, val_main_v49_apply,
    val_main_v51_apply, val_main_c_7_apply, val_main_c_8_apply, idx1_ext (idx_main_v54 (ix2 e 0)) (ix1 e) rfl]
  rfl

theorem v62_at (e : Fin 600000) : val_main_v62 (F := Ideal) x7 (ix2 e 0) = wrap 20000#32 (x7 (ix1 e)) := by
  rw [val_main_v62_apply, val_main_v61_apply, val_main_v58_apply, val_main_v60_apply, val_main_v57_apply,
    val_main_v59_apply, val_main_c_9_apply, val_main_c_10_apply, idx1_ext (idx_main_v62 (ix2 e 0)) (ix1 e) rfl]
  rfl

/-! ## The six gathers

A gathered row is the table's row `nrow e`, resp. `hrow e`. -/

theorem v16_at (e : Fin 600000) : val_main_v16 (F := Ideal) x2 x6 (ix2 e 0) = x2 (ix2 (nrow x6 e) 0) := by
  unfold val_main_v16
  rw [GatherRows.gather_rows2 _ (by norm_num) rfl rfl rfl rfl rfl rfl]
  refine congrArg x2 (congrArg (fun r => ix2 r 0) (Fin.ext ?_))
  show min (val_main_v15 (F := Ideal) x6 (ix2 e 0)).toInt.toNat (100000 - 1) = _
  rw [v15_at]
  rfl

theorem v23_at (e : Fin 600000) : val_main_v23 (F := Ideal) x5 x7 (ix2 e 0) = x5 (ix2 (hrow x7 e) 0) := by
  unfold val_main_v23
  rw [GatherRows.gather_rows2 _ (by norm_num) rfl rfl rfl rfl rfl rfl]
  refine congrArg x5 (congrArg (fun r => ix2 r 0) (Fin.ext ?_))
  show min (val_main_v22 (F := Ideal) x7 (ix2 e 0)).toInt.toNat (20000 - 1) = _
  rw [v22_at]
  rfl

theorem v48_at (e : Fin 600000) : val_main_v48 (F := Ideal) x4 x7 (ix2 e 0) = x4 (ix2 (hrow x7 e) 0) := by
  unfold val_main_v48
  rw [GatherRows.gather_rows2 _ (by norm_num) rfl rfl rfl rfl rfl rfl]
  refine congrArg x4 (congrArg (fun r => ix2 r 0) (Fin.ext ?_))
  show min (val_main_v47 (F := Ideal) x7 (ix2 e 0)).toInt.toNat (20000 - 1) = _
  rw [v47_at]
  rfl

theorem v55_at (e : Fin 600000) : val_main_v55 (F := Ideal) x3 x6 (ix2 e 0) = x3 (ix2 (nrow x6 e) 0) := by
  unfold val_main_v55
  rw [GatherRows.gather_rows2 _ (by norm_num) rfl rfl rfl rfl rfl rfl]
  refine congrArg x3 (congrArg (fun r => ix2 r 0) (Fin.ext ?_))
  show min (val_main_v54 (F := Ideal) x6 (ix2 e 0)).toInt.toNat (100000 - 1) = _
  rw [v54_at]
  rfl

theorem v31_at (e : Fin 600000) (j : Fin 128) :
    val_main_v31 (F := Ideal) x0 x6 x8 x9 x10 x11 (ix2 e j)
      = val_main_v9 (F := Ideal) x0 x8 x9 x10 x11 (ix2 (nrow x6 e) j) := by
  unfold val_main_v31
  rw [GatherRows.gather_rows2 _ (by norm_num) rfl rfl rfl rfl rfl rfl]
  refine congrArg (val_main_v9 (F := Ideal) x0 x8 x9 x10 x11) (congrArg (fun r => ix2 r j) (Fin.ext ?_))
  show min (val_main_v30 (F := Ideal) x6 (ix2 e 0)).toInt.toNat (100000 - 1) = _
  rw [v30_at]
  rfl

theorem v63_at (e : Fin 600000) (j : Fin 128) :
    val_main_v63 (F := Ideal) x0 x2 x5 x6 x7 x8 x9 x10 x11 x12 x13 (ix2 e j)
      = val_main_v41 (F := Ideal) x0 x2 x5 x6 x7 x8 x9 x10 x11 x12 x13 (ix2 (hrow x7 e) j) := by
  unfold val_main_v63
  rw [GatherRows.gather_rows2 _ (by norm_num) rfl rfl rfl rfl rfl rfl]
  refine congrArg (val_main_v41 (F := Ideal) x0 x2 x5 x6 x7 x8 x9 x10 x11 x12 x13)
    (congrArg (fun r => ix2 r j) (Fin.ext ?_))
  show min (val_main_v62 (F := Ideal) x7 (ix2 e 0)).toInt.toNat (20000 - 1) = _
  rw [v62_at]
  rfl

/-! ## The two affine layers on the vertex features -/

/-- The first layer at `(v, k)`. -/
theorem v4_at (v : Fin 100000) (k : Fin 128) :
    val_main_v4 (F := Ideal) x0 x8 x9 (ix2 v k) = (∑ k' : Fin 128, x0 (ix2 v k') * x8 (ix2 k k')) + x9 (ix1 k) := by
  rw [val_main_v4_apply, Ideal.addf_def, val_main_v1_apply, val_main_v3_apply, val_main_v2_apply,
    idx1_ext (idx_main_v2 (idx_main_v3 (ix2 v k))) (ix1 k) rfl]
  refine congrArg (· + x9 (ix1 k)) (Finset.sum_congr rfl fun k' _ => ?_)
  rw [val_main_v0_apply, idx2_ext (lidx_main_v1 (ix2 v k) k') (ix2 v k') rfl rfl,
    idx2_ext (idx_main_v0 (ridx_main_v1 (ix2 v k) k')) (ix2 k k') rfl rfl]

/-- The second layer at `(v, j)`. -/
theorem v9_at (v : Fin 100000) (j : Fin 128) :
    val_main_v9 (F := Ideal) x0 x8 x9 x10 x11 (ix2 v j) = whn x0 x8 x10 x9 x11 v j := by
  rw [val_main_v9_apply, Ideal.addf_def, val_main_v6_apply, val_main_v8_apply, val_main_v7_apply,
    idx1_ext (idx_main_v7 (idx_main_v8 (ix2 v j))) (ix1 j) rfl]
  unfold whn
  refine congrArg (· + x11 (ix1 j)) (Finset.sum_congr rfl fun k _ => ?_)
  rw [val_main_v5_apply, idx2_ext (lidx_main_v6 (ix2 v j) k) (ix2 v k) rfl rfl,
    idx2_ext (idx_main_v5 (ridx_main_v6 (ix2 v j) k)) (ix2 j k) rfl rfl, v4_at]

/-! ## First pass: vertices to hyperedges -/

/-- A message of the first pass: the gathered layer output scaled by weight over normaliser. -/
theorem v33_at (e : Fin 600000) (j : Fin 128) :
    val_main_v33 (F := Ideal) x0 x2 x5 x6 x7 x8 x9 x10 x11 (ix2 e j)
      = Ideal.div (x2 (ix2 (nrow x6 e) 0)) (x5 (ix2 (hrow x7 e) 0)) * whn x0 x8 x10 x9 x11 (nrow x6 e) j := by
  rw [val_main_v33_apply, Ideal.mulf_def, val_main_v32_apply,
    idx2_ext (idx_main_v32 (ix2 e j)) (ix2 e 0) rfl rfl, val_main_v24_apply, Ideal.hostDivf_def,
    v16_at, v23_at, v31_at, v9_at]

/-- The hyperedge features. -/
theorem v36_at (h : Fin 20000) (j : Fin 128) :
    val_main_v36 (F := Ideal) x0 x2 x5 x6 x7 x8 x9 x10 x11 (ix2 h j) = featR x0 x2 x5 x6 x7 x8 x10 x9 x11 h j := by
  unfold val_main_v36
  rw [Host.scatterAdd_ideal, ScatterRows.hostScatterAdd_rows2 _ rfl rfl rfl rfl, val_main_v34_apply,
    val_main_cst_apply, Ideal.ofBits_def, Ideal.ofBits_zero_f32]
  unfold featR intoEdge
  refine congrArg (0 + ·) (Finset.sum_congr (Finset.filter_congr fun e _ => ?_) fun e _ => v33_at x0 x2 x5 x6 x7 x8 x10 x9 x11 e j)
  rw [val_main_v35_apply, idx1_ext (idx_main_v35 (ix2 e 0)) (ix1 e) rfl]

/-! ## The affine layer on the hyperedge features -/

theorem v41_at (h : Fin 20000) (j : Fin 128) :
    val_main_v41 (F := Ideal) x0 x2 x5 x6 x7 x8 x9 x10 x11 x12 x13 (ix2 h j)
      = wheOf x12 x13 (featR x0 x2 x5 x6 x7 x8 x10 x9 x11) h j := by
  rw [val_main_v41_apply, Ideal.addf_def, val_main_v38_apply, val_main_v40_apply, val_main_v39_apply,
    idx1_ext (idx_main_v39 (idx_main_v40 (ix2 h j))) (ix1 j) rfl]
  unfold wheOf
  refine congrArg (· + x13 (ix1 j)) (Finset.sum_congr rfl fun k _ => ?_)
  rw [val_main_v37_apply, idx2_ext (lidx_main_v38 (ix2 h j) k) (ix2 h k) rfl rfl,
    idx2_ext (idx_main_v37 (ridx_main_v38 (ix2 h j) k)) (ix2 j k) rfl rfl, v36_at]

/-! ## Second pass: hyperedges to vertices -/

/-- A message of the second pass: the gathered layer output scaled by weight over normaliser. -/
theorem v65_at (e : Fin 600000) (j : Fin 128) :
    val_main_v65 (F := Ideal) x0 x2 x3 x4 x5 x6 x7 x8 x9 x10 x11 x12 x13 (ix2 e j)
      = Ideal.div (x4 (ix2 (hrow x7 e) 0)) (x3 (ix2 (nrow x6 e) 0))
          * wheOf x12 x13 (featR x0 x2 x5 x6 x7 x8 x10 x9 x11) (hrow x7 e) j := by
  rw [val_main_v65_apply, Ideal.mulf_def, val_main_v64_apply,
    idx2_ext (idx_main_v64 (ix2 e j)) (ix2 e 0) rfl rfl, val_main_v56_apply, Ideal.hostDivf_def,
    v48_at, v55_at, v63_at, v41_at]

end Stages

/-- THE REFERENCE'S RESULT AT AN INDEX is `outR`: each vertex row collects, over the incidences whose vertex word
    names it, the hyperedge layer output at the incidence's hyperedge row scaled by weight over normaliser. -/
theorem ref_eq_outR (x0 : (⟨2, ![100000, 128]⟩ : Shape).Idx → EReal)
    (x2 x3 : (⟨2, ![100000, 1]⟩ : Shape).Idx → EReal) (x4 x5 : (⟨2, ![20000, 1]⟩ : Shape).Idx → EReal)
    (x6 x7 : (⟨1, ![600000]⟩ : Shape).Idx → BitVec 32)
    (x8 : (⟨2, ![128, 128]⟩ : Shape).Idx → EReal) (x9 : (⟨1, ![128]⟩ : Shape).Idx → EReal)
    (x10 : (⟨2, ![128, 128]⟩ : Shape).Idx → EReal) (x11 : (⟨1, ![128]⟩ : Shape).Idx → EReal)
    (x12 : (⟨2, ![128, 128]⟩ : Shape).Idx → EReal) (x13 : (⟨1, ![128]⟩ : Shape).Idx → EReal)
    (v : Fin 100000) (j : Fin 128) :
    Cert.ReferenceIdeal.Read.val_main_v68 (F := Ideal) x0 x2 x3 x4 x5 x6 x7 x8 x9 x10 x11 x12 x13 (ValueIdx.ix2 v j)
      = Hnhn.outR x0 x2 x3 x4 x5 x6 x7 x8 x10 x12 x9 x11 x13 v j := by
  unfold val_main_v68
  rw [Host.scatterAdd_ideal, ScatterRows.hostScatterAdd_rows2 _ rfl rfl rfl rfl, val_main_v66_apply,
    val_main_cst_11_apply, Ideal.ofBits_def, Ideal.ofBits_zero_f32]
  unfold outR intoVertex
  refine congrArg (0 + ·) (Finset.sum_congr (Finset.filter_congr fun e _ => ?_)
    fun e _ => v65_at x0 x2 x3 x4 x5 x6 x7 x8 x10 x12 x9 x11 x13 e j)
  rw [val_main_v67_apply, idx1_ext (idx_main_v67 (ix2 e 0)) (ix1 e) rfl]

end Hnhn.RefValue

end
-- ==== Proof.lean ====
/-
  A hypergraph layer that passes messages from vertices to hyperedges and back, computed two ways.

  Both programs apply two affine layers to the vertex features, send each vertex's output along its
  incidences to the hyperedges, apply one more affine layer there, and send the result back along the
  incidences to the vertices.  Every message is weighted by its sender's weight and normalised by its
  receiver's normaliser.  The reference normalises each message before adding it to its receiver; the
  kernel folds the sender's weight into the table the messages are gathered from, adds the messages
  up, and normalises each receiver's total once.  On the extended reals these agree when every array
  entry is a real number and no normaliser is zero: dividing a finite sum of real numbers by a nonzero
  real number is dividing each term (`LibRealDivSum.lean`, used once per pass in `Spec.lean`).  The
  precondition gives exactly that: every float input finite, and the two normaliser arrays positive
  (`Finite.lean`).

  The kernel is five stretches — host operations, a grid of blocks, host operations, a second grid,
  host operations.  Its run (`KernelRun.lean`) leaves the result buffer at what the last stretch
  computes; each grid's output array is one function of the arrays the grid found (`Region0.lean`,
  `Region1.lean`, over the block's arithmetic of `Payload.lean`); the buffers at the boundaries are
  followed in `Walk.lean`, the host operations read at an index in `HostStages.lean`, and the whole
  result at an index in `KernelValue.lean`.  The reference's result at an index is `RefValue.lean`.
  The three frame claims are the two generated frames and the reference's run with its result dropped;
  the idealisation rewrote nothing, so there is nothing to preserve.
-/
import proofs.«126207_j46574625357936_2_alg».proof.Defs
import proofs.«126207_j46574625357936_2_alg».proof.Proof.Gen.Kernel
import proofs.«126207_j46574625357936_2_alg».proof.Proof.Gen.Kernel.Frame
import proofs.«126207_j46574625357936_2_alg».proof.Proof.Gen.KernelIdeal
import proofs.«126207_j46574625357936_2_alg».proof.Proof.Gen.KernelIdeal.Frame
import proofs.«126207_j46574625357936_2_alg».proof.Proof.Gen.ReferenceIdeal
import proofs.«126207_j46574625357936_2_alg».proof.Proof.Gen.Pre_finite_inputs
import proofs.«126207_j46574625357936_2_alg».proof.Proof.Gen.ReferenceIdeal.Run
import proofs.«126207_j46574625357936_2_alg».proof.Proof.Gen.ReferenceIdeal.Read
import proofs.«126207_j46574625357936_2_alg».proof.Proof.Spec
import proofs.«126207_j46574625357936_2_alg».proof.Proof.Finite
import proofs.«126207_j46574625357936_2_alg».proof.Proof.KernelRun
import proofs.«126207_j46574625357936_2_alg».proof.Proof.KernelValue
import proofs.«126207_j46574625357936_2_alg».proof.Proof.RefValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the same result: at every index the
    kernel's is `outK` and the reference's `outR` of the same arrays, and these agree because the precondition
    makes every entry a real number and both normalisers nonzero. -/
theorem algebraic : Cert.algebraic_KernelIdeal_ReferenceIdeal := by
  intro m ρ m' ρ' hpre hagree
  refine ⟨Hnhn.KernelRun.result (F := Ideal) m ρ, Hnhn.KernelRun.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v68_eq, h0, h2, h3, h4, h5, h6, h7, h8, h9, h10, h11, h12, h13]
  have P := Hnhn.pre_facts _ _ _ _ _ _ _ _ _ _ _ _ _ _ (hpre c)
  funext i
  obtain ⟨v, j, rfl⟩ : ∃ (v : Fin 100000) (j : Fin 128), i = ix2 v j := ⟨i 0, i 1, eq_ix2 i⟩
  rw [Hnhn.RefValue.ref_eq_outR]
  refine Eq.trans ?_ (Hnhn.KernelValue.result_apply m ρ c v j).symm
  exact (Hnhn.outK_eq_outR _ _ _ _ _ _ _ _ _ _ _ _ _ P.real0 P.real2 P.real3 P.real4 P.real5 P.real8 P.real9 P.real10
    P.real11 P.real12 P.real13 P.ne3 P.ne5 v j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
